-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S131072x512 : Shape := ⟨2, ![131072, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S131072x512 : S_.BroadcastsInDim S131072x512 (![] : Fin 0 → Fin S131072x512.rank)
  reducesTo_S131072x512_S_d0_1 : S131072x512.ReducesTo [0, 1] S_

variable [Facts]

def fn {F : FTy → Type} [FloatOps F] (main_arg0 : FVec F S2048x512 .f32) (main_arg1 : FVec F S131072x512 .f32) (main_arg2 : FVec F S131072x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S131072x512 .f32 := Host.absf main_arg2
  let main_cst_2 : FVec F S_ .f32 := constant S_ .f32 0x7F800000#32
  let main_v10 : FVec F S131072x512 .f32 := broadcastInDim S131072x512 ![] bcast_S_S131072x512 main_cst_2
  let main_v11 : IVec S131072x512 1 := cmpf .olt main_v9 main_v10
  let main_c_3 : IVec S_ 1 := constantI S_ 1 1#1
  let main_v12 : IVec S_ 1 := (fun x v => Host.reduce IntOp.andi x v reducesTo_S131072x512_S_d0_1 h_S_) main_v11 main_c_3
  let main_v13 : IVec S_ 1 := andi main_v8 main_v12
  main_v13
-- ==== Kernel.lean ====
abbrev S2048x512 : Shape := ⟨2, ![2048, 512]⟩
abbrev S131072x512 : Shape := ⟨2, ![131072, 512]⟩
abbrev S_ : Shape := ⟨0, ![]⟩
abbrev S2048 : Shape := ⟨1, ![2048]⟩
abbrev S2048x1 : Shape := ⟨2, ![2048, 1]⟩
abbrev S1024x512 : Shape := ⟨2, ![1024, 512]⟩
abbrev S512x512 : Shape := ⟨2, ![512, 512]⟩
abbrev S1024x1 : Shape := ⟨2, ![1024, 1]⟩
abbrev S1024 : Shape := ⟨1, ![1024]⟩

abbrev nBuf : Space → Nat
  | .hbm => 33
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S131072x512, .f32⟩
  | .hbm, ⟨2, _⟩ => ⟨S131072x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S2048x512, .f32⟩
  | .hbm, ⟨9, _⟩ => ⟨S2048x512, .f32⟩
  | .hbm, ⟨10, _⟩ => ⟨S131072x512, .bf16⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x1, .f32⟩
  | .hbm, ⟨31, _⟩ => ⟨S2048x512, .f32⟩
  | .hbm, ⟨32, _⟩ => ⟨S2048x512, .f32⟩
  | .local _ .vmem, ⟨0, _⟩ => ⟨S1024x512, .f32⟩
  | .local _ .vmem, ⟨1, _⟩ => ⟨S512x512, .f32⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | .local _ .vmem, ⟨5, _⟩ => ⟨S1024x512, .f32⟩
  | .local _ .vmem, ⟨6, _⟩ => ⟨S1024x512, .f32⟩
  | .local _ .vmem, ⟨7, _⟩ => ⟨S1024x1, .f32⟩
  | .local _ .vmem, ⟨8, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_call2_v2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v33 : BitVec 1 := Scalar.cmpi .eq arg1 c255_i32
  let v34 : BitVec 32 := Scalar.extui v33
  let c0_i32_19 : BitVec 32 := 0#32
  let v35 : BitVec 1 := Scalar.cmpi .ne v34 c0_i32_19
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  broadcasts_S1024x1_S1024x512 : S1024x1.Broadcasts S1024x512
  shapeCasts_S512x512_S512x512 : S512x512.ShapeCasts S512x512
  bcast_S_S2048x512 : S_.BroadcastsInDim S2048x512 (![] : Fin 0 → Fin S2048x512.rank)
  dot_S1024x512_S512x512_S1024x512_1_1_0_0_n_n_wf : DotDims.WF S1024x512 S512x512 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .f32 = 32 ∨ (Rect.block (s := S2048x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S131072x512.size a
  hwx0_1 : ∀ i : grid0.Coords, EltTy.bits .f32 = 32 ∨ (Rect.block (s := S131072x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S131072x512.size a
  hwx0_2 : ∀ i : grid0.Coords, EltTy.bits .bf16 = 32 ∨ (Rect.block (s := S131072x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S2048x512.size a
  hwx0_3 : ∀ i : grid0.Coords, EltTy.bits .f32 = 32 ∨ (Rect.block (s := S2048x512) S1024x512.size (cc0_transform_3 i) (hinb0_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v2) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x512 : Shape := ⟨2, ![2048, 512]⟩
abbrev S131072x512 : Shape := ⟨2, ![131072, 512]⟩
abbrev S_ : Shape := ⟨0, ![]⟩
abbrev S2048 : Shape := ⟨1, ![2048]⟩
abbrev S2048x1 : Shape := ⟨2, ![2048, 1]⟩
abbrev S2048x131072 : Shape := ⟨2, ![2048, 131072]⟩

abbrev nBuf : Space → Nat
  | .hbm => 50
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S131072x512, .f32⟩
  | .hbm, ⟨2, _⟩ => ⟨S131072x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S2048x512, .f32⟩
  | .hbm, ⟨9, _⟩ => ⟨S2048x512, .f32⟩
  | .hbm, ⟨10, _⟩ => ⟨S2048x131072, .f32⟩
  | .hbm, ⟨11, _⟩ => ⟨S_, .f32⟩
  | .hbm, ⟨12, _⟩ => ⟨S2048x131072, .f32⟩
  | .hbm, ⟨13, _⟩ => ⟨S2048x131072, .f32⟩
  | .hbm, ⟨14, _⟩ => ⟨S_, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S2048x1, .f32⟩
  | .hbm, ⟨20, _⟩ => ⟨S2048x131072, .f32⟩
  | .hbm, ⟨21, _⟩ => ⟨S2048x131072, .f32⟩
  | .hbm, ⟨22, _⟩ => ⟨S2048x131072, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x131072, .f32⟩
  | .hbm, ⟨27, _⟩ => ⟨S2048x131072, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1, .f32⟩
  | .hbm, ⟨48, _⟩ => ⟨S2048x512, .f32⟩
  | .hbm, ⟨49, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_call2_v2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  bcast_S_S2048x131072 : S_.BroadcastsInDim S2048x131072 (![] : Fin 0 → Fin S2048x131072.rank)
  reducesTo_S2048x131072_S2048_d1 : S2048x131072.ReducesTo [1] S2048
  bcast_S_S2048 : S_.BroadcastsInDim S2048 (![] : Fin 0 → Fin S2048.rank)
  bcast_S2048x1_S2048x131072_0_1 : S2048x1.BroadcastsInDim S2048x131072 (![0, 1] : Fin 2 → Fin S2048x131072.rank)
  bcast_S_S2048x512 : S_.BroadcastsInDim S2048x512 (![] : Fin 0 → Fin S2048x512.rank)
  dot_S2048x512_S131072x512_S2048x131072_1_1_0_0_n_n_wf : DotDims.WF S2048x512 S131072x512 S2048x131072 [1] [1] [0] [0] [] []
  dot_S2048x131072_S131072x512_S2048x512_1_0_0_1_n_n_wf : DotDims.WF S2048x131072 S131072x512 S2048x512 [1] [0] [0] [1] [] []

variable [Facts₀]

def dot_S2048x512_S131072x512_S2048x131072_1_1_0_0_n_n : DotDims S2048x512 S131072x512 S2048x131072 where
  lhsContracting := [1]
  rhsContracting := [1]
  lhsNonContracting := [0]
  rhsNonContracting := [0]
  lhsBatch := []
  rhsBatch := []
  wf := dot_S2048x512_S131072x512_S2048x131072_1_1_0_0_n_n_wf
def dot_S2048x131072_S131072x512_S2048x512_1_0_0_1_n_n : DotDims S2048x131072 S131072x512 S2048x512 where
  lhsContracting := [1]
  rhsContracting := [0]
  lhsNonContracting := [0]
  rhsNonContracting := [1]
  lhsBatch := []
  rhsBatch := []
  wf := dot_S2048x131072_S131072x512_S2048x512_1_0_0_1_n_n_wf

class Facts : Prop extends Facts₀ where

variable [Facts]
-- ==== Proof.BodyPieces.lean ====
/-
  What the body of the one-pass retrieval leaves behind, case by case.

  The body runs in three cases: at the first memory block of a query block it first stores `-∞` into the
  running-maximum buffer and zero into the accumulator; at every block it replaces the running maximum by its maximum
  with the block's row maxima, and the accumulator by its rescaled self plus the block's weighted value rows; at the
  last block it also copies the accumulator to the output block. Each buffer ends holding ONE whole-buffer store's
  value, a function of the three input blocks and of what the two buffers held before.
-/
import proofs.«123042_j68418829025564_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-- Between the first and the last memory block the body leaves, in the running-maximum buffer that held `xs0`, the
    maximum of `xs0` and the block's row maxima, -/
theorem scratchMax_B (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1024x512 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i) (x0 : Vec F S1024x512 .f32) (x1 : Vec F S512x512 .f32) (x2 : Vec F S512x512 .bf16) (xs0 : Vec F S1024x1 .f32) (xs1 : Vec F S1024x512 .f32) :
    sout0_B_0 c i arg2 harg2 arg3 harg3 arg4 harg4 arg5 harg5 arg6 harg6 arg7 harg7 hc0 hc1 x0 x1 x2 xs0 xs1 = k0_pay6 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  rw [View.canon_unit_zero hz]
  simp only [View.readAt_eq_ld, harg2.read_unread, harg3.read_unread, harg4.read_unread, harg6.read_unread, harg7.read_unread, View.ld_unit_zero (S := S1024x512) hz, View.ld_unit_zero (S := S512x512) hz, View.ld_unit_zero (S := S1024x1) hz]

/-- and in the accumulator that held `xs1` the rescaled `xs1` plus the block's weighted value rows. -/
theorem scratchAcc_B (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1024x512 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i) (x0 : Vec F S1024x512 .f32) (x1 : Vec F S512x512 .f32) (x2 : Vec F S512x512 .bf16) (xs0 : Vec F S1024x1 .f32) (xs1 : Vec F S1024x512 .f32) :
    sout0_B_1 c i arg2 harg2 arg3 harg3 arg4 harg4 arg5 harg5 arg6 harg6 arg7 harg7 hc0 hc1 x0 x1 x2 xs0 xs1 = k0_pay5 x0 x1 xs0 xs0 xs1 x2 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  rw [View.canon_unit_zero hz]
  simp only [View.readAt_eq_ld, harg2.read_unread, harg3.read_unread, harg4.read_unread, harg6.read_unread, harg7.read_unread, View.ld_unit_zero (S := S1024x512) hz, View.ld_unit_zero (S := S512x512) hz, View.ld_unit_zero (S := S1024x1) hz]

/-- At the last memory block the two buffers are updated the same way, -/
theorem scratchMax_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1024x512 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i) (x0 : Vec F S1024x512 .f32) (x1 : Vec F S512x512 .f32) (x2 : Vec F S512x512 .bf16) (xs0 : Vec F S1024x1 .f32) (xs1 : Vec F S1024x512 .f32) :
    sout0_C_0 c i arg2 harg2 arg3 harg3 arg4 harg4 arg5 harg5 arg6 harg6 arg7 harg7 hc0 hc1 x0 x1 x2 xs0 xs1 = k0_pay6 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  rw [View.canon_unit_zero hz]
  simp only [View.readAt_eq_ld, harg2.read_unread, harg3.read_unread, harg4.read_unread, harg6.read_unread, harg7.read_unread, View.ld_unit_zero (S := S1024x512) hz, View.ld_unit_zero (S := S512x512) hz, View.ld_unit_zero (S := S1024x1) hz]

theorem scratchAcc_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1024x512 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i) (x0 : Vec F S1024x512 .f32) (x1 : Vec F S512x512 .f32) (x2 : Vec F S512x512 .bf16) (xs0 : Vec F S1024x1 .f32) (xs1 : Vec F S1024x512 .f32) :
    sout0_C_1 c i arg2 harg2 arg3 harg3 arg4 harg4 arg5 harg5 arg6 harg6 arg7 harg7 hc0 hc1 x0 x1 x2 xs0 xs1 = k0_pay5 x0 x1 xs0 xs0 xs1 x2 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S1024x512) hz, View.ld_unit_zero (S := S512x512) hz, View.ld_unit_zero (S := S1024x1) hz]

/-- and the output block receives the updated accumulator, read back from its buffer. -/
theorem outBlock_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1024x512 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i) (x0 : Vec F S1024x512 .f32) (x1 : Vec F S512x512 .f32) (x2 : Vec F S512x512 .bf16) (xs0 : Vec F S1024x1 .f32) (xs1 : Vec F S1024x512 .f32) :
    out0_C_3 c i arg2 harg2 arg3 harg3 arg4 harg4 arg5 harg5 arg6 harg6 arg7 harg7 hc0 hc1 x0 x1 x2 xs0 xs1 = k0_pay5 x0 x1 xs0 xs0 xs1 x2 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz, View.readCov_unit_zero (S := S1024x512) _ hz]
  simp only [View.readAt_eq_ld, harg2.read_unread, harg3.read_unread, harg4.read_unread, harg6.read_unread, harg7.read_unread, View.ld_unit_zero (S := S1024x512) hz, View.ld_unit_zero (S := S512x512) hz, View.ld_unit_zero (S := S1024x1) hz]

/-- At the first memory block the body first stores `-∞` (`k0_pay1`) and zero (`k0_pay2`) into the two buffers and
    reads them back, so it leaves the same updates of those. -/
theorem scratchMax_A (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1024x512 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i) (x0 : Vec F S1024x512 .f32) (x1 : Vec F S512x512 .f32) (x2 : Vec F S512x512 .bf16) :
    sout0_A_0 c i arg2 harg2 arg3 harg3 arg4 harg4 arg5 harg5 arg6 harg6 arg7 harg7 hc0 hc1 x0 x1 x2 = k0_pay6 x0 x1 k0_pay1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread, harg7.read_unread, View.ld_unit_zero (S := S1024x512) hz, View.ld_unit_zero (S := S512x512) hz, View.ld_unit_zero (S := S1024x1) hz]

theorem scratchAcc_A (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1024x512 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i) (x0 : Vec F S1024x512 .f32) (x1 : Vec F S512x512 .f32) (x2 : Vec F S512x512 .bf16) :
    sout0_A_1 c i arg2 harg2 arg3 harg3 arg4 harg4 arg5 harg5 arg6 harg6 arg7 harg7 hc0 hc1 x0 x1 x2 = k0_pay5 x0 x1 k0_pay1 k0_pay1 k0_pay2 x2 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1024x512) hz, View.readCov_unit_zero (S := S1024x512) _ hz, View.readCov_unit_zero (S := S1024x1) _ hz]
  simp only [View.readAt_eq_ld, harg2.read_unread, harg3.read_unread, harg4.read_unread, harg6.read_unread, harg7.read_unread, View.ld_unit_zero (S := S1024x512) hz, View.ld_unit_zero (S := S512x512) hz, View.ld_unit_zero (S := S1024x1) hz]

end Cert.KernelIdeal.Pieces

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«123042_j68418829025564_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Retrieval.lean ====
/-
  Retrieval by a tempered softmax, one query row at a time: the quantities both programs compute.

  For a query row with scores `s i` against the memory rows `i` and a feature column `v i` of the value memory, the
  reference forms the softmax weights `exp (s i - max s) / Σ exp (s i' - max s)` and their combination with `v`. A
  one-pass evaluation visits the memory in blocks of `B` rows and carries a running maximum and a running
  UNNORMALISED combination, rescaled by `exp (old max - new max)` whenever the maximum grows (`runMax`, `runAcc`).
  Both are followed by a division of the row by its Euclidean norm, which forgets any positive common factor.
-/
import Idealize.ShloMosaic.PureOps.Ideal
import proofs.«123042_j68418829025564_2_alg».proof.Proof.LibOrderFold

noncomputable section

open scoped BigOperators

namespace Retrieval

open Idealize.ShloMosaic

/-- The running maximum of the scores after `n` blocks: `-∞` before the first block. -/
def runMax {B : ℕ} (s : ℕ → Fin B → EReal) : ℕ → EReal
  | 0 => ⊥
  | n + 1 => max (runMax s n) (⨆ k, s n k)

/-- The running unnormalised combination after `n` blocks, relative to the running maximum: the previous one
    rescaled by `exp (old max - new max)`, plus the block's terms `exp (s - new max) · v`. -/
def runAcc {B : ℕ} (s : ℕ → Fin B → EReal) (v : ℕ → Fin B → EReal) : ℕ → EReal
  | 0 => 0
  | n + 1 => Ideal.exp (runMax s n - runMax s (n + 1)) * runAcc s v n
      + ∑ k, Ideal.exp (s n k - runMax s (n + 1)) * v n k

theorem runMax_zero {B : ℕ} (s : ℕ → Fin B → EReal) : runMax s 0 = ⊥ := rfl
theorem runMax_succ {B : ℕ} (s : ℕ → Fin B → EReal) (n : ℕ) :
    runMax s (n + 1) = max (runMax s n) (⨆ k, s n k) := rfl
theorem runAcc_zero {B : ℕ} (s v : ℕ → Fin B → EReal) : runAcc s v 0 = 0 := rfl
theorem runAcc_succ {B : ℕ} (s v : ℕ → Fin B → EReal) (n : ℕ) :
    runAcc s v (n + 1) = Ideal.exp (runMax s n - runMax s (n + 1)) * runAcc s v n
      + ∑ k, Ideal.exp (s n k - runMax s (n + 1)) * v n k := rfl

/-- A row divided by its Euclidean norm. -/
def unit {D : ℕ} (x : Fin D → EReal) (d : Fin D) : EReal :=
  Ideal.div (x d) (Ideal.sqrt (∑ e, x e * x e))

/-- The mean of the unit query row and the unit retrieved row. -/
def blend {D : ℕ} (h : EReal) (q r : Fin D → EReal) (d : Fin D) : EReal :=
  h * q d + h * unit r d

/-- The reference's retrieved row: the softmax weights of the scores combined with the value columns. -/
def softmaxCombine {N D : ℕ} (s : Fin N → EReal) (v : Fin N → Fin D → EReal) (d : Fin D) : EReal :=
  ∑ i, Ideal.div (Ideal.exp (s i - max ⊥ (⨆ i', s i'))) (∑ i', Ideal.exp (s i' - max ⊥ (⨆ i'', s i''))) * v i d

end Retrieval

end
-- ==== Proof.RetrievalArrays.lean ====
/-
  The two programs' results as functions of the three argument arrays `x : [2048, 512]`, `key_mem`, `value_mem :
  [131072, 512]`, index by index on the extended reals.

  Both first divide each row of `x` by its norm (`query`), score a query row `b` against memory row `i` by the inner
  product divided by the temperature (`score`: times `invT`, the temperature's reciprocal), retrieve a row of features,
  and finish by normalising the retrieved row, averaging it with the query row and normalising again (`finish`).
  They differ in the retrieval: the reference combines the value rows with the softmax weights of the scores
  (`refRetrieved`); the one-pass program visits the memory in 256 blocks of 512 rows, carrying the running maximum and
  the running unnormalised combination (`onePassRetrieved`), and never divides by the softmax denominator.
-/
import Idealize.ShloMosaic.Lib.ValueIdx
import proofs.«123042_j68418829025564_2_alg».proof.Proof.Retrieval

noncomputable section

open scoped BigOperators

namespace Retrieval

open Idealize.ShloMosaic Idealize.ShloMosaic.ValueIdx

abbrev SQ : Shape := ⟨2, ![2048, 512]⟩
abbrev SMem : Shape := ⟨2, ![131072, 512]⟩

/-- The reciprocal of the temperature `9395241 / 2^27`. -/
def invT : EReal := ((134217728 / 9395241 : ℝ) : EReal)

/-- The interpolation weight one half. -/
def halfW : EReal := Ideal.ofBits .f32 0x3F000000#32

/-- Row `b` of a `[2048, 512]` array. -/
def rowOf (a : SQ.Idx → EReal) (b : Fin 2048) : Fin 512 → EReal := fun d => a (ix2 b d)

/-- The rows of `x` divided by their norms. -/
def query (x : SQ.Idx → EReal) : SQ.Idx → EReal := fun i => unit (rowOf x (i 0)) (i 1)

/-- The score of query row `b` against memory row `i`: their inner product over the temperature. -/
def score (q : SQ.Idx → EReal) (K : SMem.Idx → EReal) (b : Fin 2048) (i : Fin 131072) : EReal :=
  (∑ d : Fin 512, q (ix2 b d) * K (ix2 i d)) * invT

/-- From the query rows and the retrieved rows to the result: each row of the result is the unit vector of the
    mean of the unit query row and the unit retrieved row. -/
def finish (q R : SQ.Idx → EReal) : SQ.Idx → EReal :=
  fun i => unit (blend halfW (rowOf q (i 0)) (rowOf R (i 0))) (i 1)

/-- The reference's retrieved rows: the value rows combined with the softmax weights of the scores. -/
def refRetrieved (q : SQ.Idx → EReal) (K V : SMem.Idx → EReal) : SQ.Idx → EReal :=
  fun i => softmaxCombine (score q K (i 0)) (fun m d => V (ix2 m d)) (i 1)

/-- The reference's result. -/
def refResult (x : SQ.Idx → EReal) (K V : SMem.Idx → EReal) : SQ.Idx → EReal :=
  finish (query x) (refRetrieved (query x) K V)

/-- Block `n` of a query row's scores: memory rows `512 n + k`. -/
def scoreBlock (q : SQ.Idx → EReal) (K : SMem.Idx → EReal) (b : Fin 2048) (n : ℕ) (k : Fin 512) : EReal :=
  if h : 512 * n + k.val < 131072 then score q K b ⟨512 * n + k.val, h⟩ else 0

/-- Block `n` of feature column `d` of the value memory. -/
def valueBlock (V : SMem.Idx → EReal) (d : Fin 512) (n : ℕ) (k : Fin 512) : EReal :=
  if h : 512 * n + k.val < 131072 then V (ix2 ⟨512 * n + k.val, h⟩ d) else 0

/-- The one-pass retrieved rows: the running unnormalised combination after all 256 blocks. -/
def onePassRetrieved (q : SQ.Idx → EReal) (K V : SMem.Idx → EReal) : SQ.Idx → EReal :=
  fun i => runAcc (scoreBlock q K (i 0)) (valueBlock V (i 1)) 256

/-- The one-pass program's result. -/
def onePassResult (x : SQ.Idx → EReal) (K V : SMem.Idx → EReal) : SQ.Idx → EReal :=
  finish (query x) (onePassRetrieved (query x) K V)

end Retrieval

end
-- ==== Proof.BodyValue.lean ====
/-
  The body's arithmetic at one element, on the extended reals.

  With `a` the query block (1024 rows), `w` a key block and `u` a value block (512 memory rows each), `mo` the running
  maxima and `ao` the accumulator the body finds: the scores of the block are the inner products of query rows and
  key rows times the temperature's reciprocal; the new running maximum of row `p` is the maximum of the old one and
  the row's largest score in the block; the new accumulator at `(p, d)` is `exp (old max - new max)` times the old
  one plus the sum over the block's memory rows `k` of `exp (score p k - new max)` times `u (k, d)`.
-/
import proofs.«123042_j68418829025564_2_alg».proof.Proof.Gen.KernelIdeal.Skeleton
import proofs.«123042_j68418829025564_2_alg».proof.Proof.LibExtremeReduce
import proofs.«123042_j68418829025564_2_alg».proof.Proof.LibKeepdims
import proofs.«123042_j68418829025564_2_alg».proof.Proof.RetrievalArrays
import Idealize.ShloMosaic.PureOps.IdealRules
import Idealize.ShloMosaic.PureOps.Ideal.Laws
import Idealize.ShloMosaic.Lib.ValueIdx
import Idealize.ShloMosaic.Lib.Pipeline.Value

noncomputable section

open scoped BigOperators

namespace Cert.KernelIdeal.BodyValue

open Cert.KernelIdeal Cert.KernelIdeal.Gen Idealize.ShloMosaic Idealize.ShloMosaic.ValueIdx

/-- The named constant is the reciprocal of the temperature. -/
theorem invT_eq : Named.named (F := Ideal) Cert.KernelIdeal.κ "inv_temperature" (φ := .f32) 0x41649249#32 = Retrieval.invT :=
  IdealRules.named_const.ideal_named_scalar _ _ _ _ rfl

/-! ## The two matrix products as sums -/

theorem qk_lhs0 (i : S1024x512.Idx) (q : dot_S1024x512_S512x512_S1024x512_1_1_0_0_n_n.contr.Idx) : (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem qk_rhs0 (i : S1024x512.Idx) (q : dot_S1024x512_S512x512_S1024x512_1_1_0_0_n_n.contr.Idx) : (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl

/-- Query rows against key rows: entry `(p, k)` is the inner product of row `p` of `a` and row `k` of `w`. -/
theorem rowsDot_apply (a : FVec Ideal S1024x512 .f32) (w : FVec Ideal S512x512 .f32) (p : Fin 1024) (k : Fin 512) :
    matmul dot_S1024x512_S512x512_S1024x512_1_1_0_0_n_n (some .fp32) a w (constant S1024x512 .f32 0x00000000#32) (ix2 p k)
      = ∑ d : Fin 512, a (ix2 p d) * w (ix2 k d) := by
  simp only [matmul]
  rw [Ideal.matmul_constant_zero_apply, ← Equiv.sum_comp (contrEquiv1 dot_S1024x512_S512x512_S1024x512_1_1_0_0_n_n 512 rfl rfl).symm]
  refine Finset.sum_congr rfl fun d _ => ?_
  have hk := contrEquiv1_symm_val dot_S1024x512_S512x512_S1024x512_1_1_0_0_n_n 512 rfl rfl d
  have el : dot_S1024x512_S512x512_S1024x512_1_1_0_0_n_n.lhsIdx (ix2 p k) ((contrEquiv1 dot_S1024x512_S512x512_S1024x512_1_1_0_0_n_n 512 rfl rfl).symm d) = ix2 p d := funext fun ax => Fin.ext (by
    match ax with
    | ⟨0, _⟩ => exact qk_lhs0 _ _
    | ⟨1, _⟩ => exact (dot_S1024x512_S512x512_S1024x512_1_1_0_0_n_n.lhsIdx_val_of_single rfl _ _).trans hk)
  have er : dot_S1024x512_S512x512_S1024x512_1_1_0_0_n_n.rhsIdx (ix2 p k) ((contrEquiv1 dot_S1024x512_S512x512_S1024x512_1_1_0_0_n_n 512 rfl rfl).symm d) = ix2 k d := funext fun ax => Fin.ext (by
    match ax with
    | ⟨0, _⟩ => exact qk_rhs0 _ _
    | ⟨1, _⟩ => exact (dot_S1024x512_S512x512_S1024x512_1_1_0_0_n_n.rhsIdx_val_of_single rfl _ _).trans hk)
  rw [el, er]

theorem pv_lhs0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem pv_rhs1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Weights against value rows: entry `(p, d)` is the sum over the block's memory rows `k` of `a (p, k) · u (k, d)`. -/
theorem weighted_apply {φ₁ φ₂ : FTy} (a : FVec Ideal S1024x512 φ₁) (u : FVec Ideal S512x512 φ₂) (p : Fin 1024) (d : Fin 512) :
    matmul dot_S1024x512_S512x512_S1024x512_1_0_0_1_n_n none a u (constant S1024x512 .f32 0x00000000#32) (ix2 p d)
      = ∑ k : Fin 512, a (ix2 p k) * u (ix2 k d) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p d) ((contrEquiv1 dot_S1024x512_S512x512_S1024x512_1_0_0_1_n_n 512 rfl rfl).symm k) = ix2 p k := funext fun ax => Fin.ext (by
    match ax with
    | ⟨0, _⟩ => exact pv_lhs0 _ _
    | ⟨1, _⟩ => exact (dot_S1024x512_S512x512_S1024x512_1_0_0_1_n_n.lhsIdx_val_of_single rfl _ _).trans hk)
  have er : dot_S1024x512_S512x512_S1024x512_1_0_0_1_n_n.rhsIdx (ix2 p d) ((contrEquiv1 dot_S1024x512_S512x512_S1024x512_1_0_0_1_n_n 512 rfl rfl).symm k) = ix2 k d := funext fun ax => Fin.ext (by
    match ax with
    | ⟨0, _⟩ => exact (dot_S1024x512_S512x512_S1024x512_1_0_0_1_n_n.rhsIdx_val_of_single rfl _ _).trans hk
    | ⟨1, _⟩ => exact pv_rhs1 _ _)
  rw [el, er]

/-! ## The stores' values at an element -/

/-- The block's scores. -/
theorem scores_apply (a : Vec Ideal S1024x512 .f32) (w : Vec Ideal S512x512 .f32) (p : Fin 1024) (k : Fin 512) :
    k0_pay3 (F := Ideal) a w (ix2 p k) = (∑ d : Fin 512, a (ix2 p d) * w (ix2 k d)) * Retrieval.invT := by
  unfold k0_pay3
  show matmul dot_S1024x512_S512x512_S1024x512_1_1_0_0_n_n (some .fp32) (shapeCast S1024x512 a shapeCasts_S1024x512_S1024x512) w (constant S1024x512 .f32 0x00000000#32) (ix2 p k)
      * Named.named (F := Ideal) Cert.KernelIdeal.κ "inv_temperature" (φ := .f32) 0x41649249#32 = _
  rw [invT_eq, shapeCast_self, rowsDot_apply]

/-- A row's largest entry: the lane maximum from `-∞` over the 512 columns. -/
theorem rowMax_apply (src : FVec Ideal S1024x512 .f32) (p : Fin 1024) :
    multiReduction (F := Ideal) .maximumf [1] S1024 src 0xFF800000#32 reduces_S1024x512_S1024 (.inl rfl) rfl (ix1 p)
      = ⨆ k : Fin 512, src (ix2 p k) :=
  (ExtremeReduce.multiReduction_max_single src reduces_S1024x512_S1024 (.inl rfl) rfl (ix1 p)).trans
    (iSup_congr fun k => congrArg src (funext fun ax => Fin.ext (by match ax with | ⟨0, _⟩ => rfl | ⟨1, _⟩ => rfl)))

/-- The new running maximum of row `p`. -/
theorem newMax_apply (a : Vec Ideal S1024x512 .f32) (w : Vec Ideal S512x512 .f32) (mo : Vec Ideal S1024x1 .f32) (p : Fin 1024) :
    k0_pay4 (F := Ideal) a w mo (ix2 p (0 : Fin 1)) = max (mo (ix2 p (0 : Fin 1))) (⨆ k : Fin 512, k0_pay3 (F := Ideal) a w (ix2 p k)) := by
  unfold k0_pay4
  show max (mo (ix2 p (0 : Fin 1))) (shapeCast S1024x1 (multiReduction (F := Ideal) .maximumf [1] S1024 (k0_pay3 a w) 0xFF800000#32 reduces_S1024x512_S1024 (.inl rfl) rfl) shapeCasts_S1024_S1024x1 (ix2 p (0 : Fin 1))) = _
  refine congrArg (max _) ?_
  refine (Cert.LibKeepdims.shapeCast_a_a1_apply _ _ p (0 : Fin 1)).trans ?_
  exact rowMax_apply (k0_pay3 (F := Ideal) a w) p

/-- The stored running maximum is the new one. -/
theorem storedMax_eq (a : Vec Ideal S1024x512 .f32) (w : Vec Ideal S512x512 .f32) (mo : Vec Ideal S1024x1 .f32) :
    k0_pay6 (F := Ideal) a w mo = k0_pay4 (F := Ideal) a w mo := by
  unfold k0_pay6
  exact shapeCast_self _ _

/-- The new accumulator at `(p, d)`. -/
theorem newAcc_apply (a : Vec Ideal S1024x512 .f32) (w : Vec Ideal S512x512 .f32) (mo mo' : Vec Ideal S1024x1 .f32)
    (ao : Vec Ideal S1024x512 .f32) (u : Vec Ideal S512x512 .bf16) (p : Fin 1024) (d : Fin 512) :
    k0_pay5 (F := Ideal) a w mo mo' ao u (ix2 p d)
      = Ideal.exp (mo' (ix2 p (0 : Fin 1)) - k0_pay4 (F := Ideal) a w mo (ix2 p (0 : Fin 1))) * ao (ix2 p d)
        + ∑ k : Fin 512, Ideal.exp (k0_pay3 (F := Ideal) a w (ix2 p k) - k0_pay4 (F := Ideal) a w mo (ix2 p (0 : Fin 1))) * u (ix2 k d) := by
  unfold k0_pay5
  show shapeCast S1024x512 (addf (mulf (broadcastTo S1024x512 (exp (subf mo' (k0_pay4 (F := Ideal) a w mo))) broadcasts_S1024x1_S1024x512) ao)
      (matmul dot_S1024x512_S512x512_S1024x512_1_0_0_1_n_n none (truncf .bf16 (exp (subf (k0_pay3 (F := Ideal) a w) (broadcastTo S1024x512 (k0_pay4 (F := Ideal) a w mo) broadcasts_S1024x1_S1024x512))) bitsLt_bf16_f32)
        (shapeCast S512x512 u shapeCasts_S512x512_S512x512) (constant S1024x512 .f32 0x00000000#32))) shapeCasts_S1024x512_S1024x512 (ix2 p d) = _
  rw [shapeCast_self, shapeCast_self]
  show broadcastTo S1024x512 (exp (subf mo' (k0_pay4 (F := Ideal) a w mo))) broadcasts_S1024x1_S1024x512 (ix2 p d) * ao (ix2 p d)
      + matmul dot_S1024x512_S512x512_S1024x512_1_0_0_1_n_n none (truncf .bf16 (exp (subf (k0_pay3 (F := Ideal) a w) (broadcastTo S1024x512 (k0_pay4 (F := Ideal) a w mo) broadcasts_S1024x1_S1024x512))) bitsLt_bf16_f32)
        u (constant S1024x512 .f32 0x00000000#32) (ix2 p d) = _
  rw [Cert.LibKeepdims.broadcastTo_a1_ab_apply, weighted_apply]
  refine congrArg (_ + ·) (Finset.sum_congr rfl fun k _ => ?_)
  show Ideal.exp (k0_pay3 (F := Ideal) a w (ix2 p k) - broadcastTo S1024x512 (k0_pay4 (F := Ideal) a w mo) broadcasts_S1024x1_S1024x512 (ix2 p k)) * u (ix2 k d) = _
  rw [Cert.LibKeepdims.broadcastTo_a1_ab_apply]

end Cert.KernelIdeal.BodyValue

end
-- ==== Proof.BodyStep.lean ====
/-
  One step of the one-pass retrieval: if the body finds, for the query rows of query block `b0`, the running maxima
  and the running combination after `j` memory blocks, then what it stores is those after `j + 1` blocks. The reset
  values (`-∞`, zero) are the ones before any block.
-/
import proofs.«123042_j68418829025564_2_alg».proof.Proof.BodyValue

noncomputable section

open scoped BigOperators

namespace Cert.KernelIdeal.BodyStep

open Cert.KernelIdeal Cert.KernelIdeal.Gen Idealize.ShloMosaic Idealize.ShloMosaic.ValueIdx Retrieval
open Cert.KernelIdeal.BodyValue

/-- Row `p` of query block `b0` in the query array. -/
def qRow (b0 : ℕ) (hb0 : b0 < 2) (p : Fin 1024) : Fin 2048 := ⟨1024 * b0 + p.val, by have := p.isLt; omega⟩

/-- Row `k` of memory block `j` in the memory arrays. -/
def memRow (j : ℕ) (hj : j < 256) (k : Fin 512) : Fin 131072 := ⟨512 * j + k.val, by have := k.isLt; omega⟩

/-- The reset running maximum is `-∞`, -/
theorem resetMax_apply (i : S1024x1.Idx) : k0_pay1 (F := Ideal) i = ⊥ := by
  unfold k0_pay1
  show shapeCast S1024x1 (broadcast S1024x1 (Ideal.ofBits .f32 0xFF800000#32)) shapeCasts_S1024x1_S1024x1 i = ⊥
  rw [shapeCast_self]
  exact ExtremeReduce.ofBits_negInf

/-- the reset accumulator zero. -/
theorem resetAcc_apply (i : S1024x512.Idx) : k0_pay2 (F := Ideal) i = 0 := by
  unfold k0_pay2
  show shapeCast S1024x512 (broadcast S1024x512 (Ideal.ofBits .f32 0x00000000#32)) shapeCasts_S1024x512_S1024x512 i = 0
  rw [shapeCast_self]
  exact Ideal.ofBits_zero_f32

variable (Q : SQ.Idx → EReal) (K Vv : SMem.Idx → EReal)

theorem scoreBlock_memRow (b : Fin 2048) (j : ℕ) (hj : j < 256) (k : Fin 512) :
    scoreBlock Q K b j k = score Q K b (memRow j hj k) := by
  have h : 512 * j + k.val < 131072 := (memRow j hj k).isLt
  unfold scoreBlock
  rw [dif_pos h]
  rfl

theorem valueBlock_memRow (d : Fin 512) (j : ℕ) (hj : j < 256) (k : Fin 512) :
    valueBlock Vv d j k = Vv (ix2 (memRow j hj k) d) := by
  have h : 512 * j + k.val < 131072 := (memRow j hj k).isLt
  unfold valueBlock
  rw [dif_pos h]
  rfl

/-- The block's scores are block `j` of the rows' scores. -/
theorem scores_block (b0 j : ℕ) (hb0 : b0 < 2) (hj : j < 256)
    (a : Vec Ideal S1024x512 .f32) (w : Vec Ideal S512x512 .f32)
    (ha : ∀ (p : Fin 1024) (d : Fin 512), a (ix2 p d) = Q (ix2 (qRow b0 hb0 p) d))
    (hw : ∀ (k : Fin 512) (d : Fin 512), w (ix2 k d) = K (ix2 (memRow j hj k) d))
    (p : Fin 1024) (k : Fin 512) :
    k0_pay3 (F := Ideal) a w (ix2 p k) = scoreBlock Q K (qRow b0 hb0 p) j k := by
  rw [scores_apply, scoreBlock_memRow Q K _ j hj k]
  unfold score
  exact congrArg (· * invT) (Finset.sum_congr rfl fun d _ => by rw [ha p d, hw k d])

/-- The step. -/
theorem step (b0 j : ℕ) (hb0 : b0 < 2) (hj : j < 256)
    (a : Vec Ideal S1024x512 .f32) (w : Vec Ideal S512x512 .f32) (u : Vec Ideal S512x512 .bf16)
    (mo : Vec Ideal S1024x1 .f32) (ao : Vec Ideal S1024x512 .f32)
    (ha : ∀ (p : Fin 1024) (d : Fin 512), a (ix2 p d) = Q (ix2 (qRow b0 hb0 p) d))
    (hw : ∀ (k : Fin 512) (d : Fin 512), w (ix2 k d) = K (ix2 (memRow j hj k) d))
    (hu : ∀ (k : Fin 512) (d : Fin 512), u (ix2 k d) = Vv (ix2 (memRow j hj k) d))
    (hm : ∀ p : Fin 1024, mo (ix2 p (0 : Fin 1)) = runMax (scoreBlock Q K (qRow b0 hb0 p)) j)
    (hacc : ∀ (p : Fin 1024) (d : Fin 512), ao (ix2 p d) = runAcc (scoreBlock Q K (qRow b0 hb0 p)) (valueBlock Vv d) j) :
    (∀ p : Fin 1024, k0_pay6 (F := Ideal) a w mo (ix2 p (0 : Fin 1)) = runMax (scoreBlock Q K (qRow b0 hb0 p)) (j + 1))
    ∧ (∀ (p : Fin 1024) (d : Fin 512), k0_pay5 (F := Ideal) a w mo mo ao u (ix2 p d)
        = runAcc (scoreBlock Q K (qRow b0 hb0 p)) (valueBlock Vv d) (j + 1)) := by
  have hmax : ∀ p : Fin 1024, k0_pay4 (F := Ideal) a w mo (ix2 p (0 : Fin 1)) = runMax (scoreBlock Q K (qRow b0 hb0 p)) (j + 1) := fun p => by
    rw [newMax_apply, hm p, runMax_succ]
    exact congrArg (max _) (iSup_congr fun k => scores_block Q K b0 j hb0 hj a w ha hw p k)
  refine ⟨fun p => by rw [storedMax_eq]; exact hmax p, fun p d => ?_⟩
  rw [newAcc_apply, hmax p, hm p, hacc p d, runAcc_succ]
  refine congrArg (_ + ·) (Finset.sum_congr rfl fun k _ => ?_)
  rw [scores_block Q K b0 j hb0 hj a w ha hw p k, hu k d, valueBlock_memRow Vv d j hj k]

end Cert.KernelIdeal.BodyStep

end
-- ==== Proof.RegionValue.lean ====
/-
  The pallas region's output array: the one-pass retrieved rows.

  The grid is 2 query blocks (1024 rows) times 256 memory blocks (512 rows); point `t` works on query block `t / 256`
  and memory block `t % 256`, reading rows `1024 (t / 256) + p` of the query array and rows `512 (t % 256) + k` of the
  key and value memories. After point `t` the two carried buffers hold, for each query row of the block, the running
  maximum and the running combination after `t % 256 + 1` memory blocks (induction on `t`; the first point of a query
  block starts from the reset values). Only the last point of a query block writes the output block back, and it
  holds the combination after all 256 blocks; the two written blocks cover the array.
-/
import proofs.«123042_j68418829025564_2_alg».proof.Proof.BodyPieces
import proofs.«123042_j68418829025564_2_alg».proof.Proof.BodyStep

set_option maxRecDepth 16384

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx Retrieval
open Cert.KernelIdeal.BodyStep Cert.KernelIdeal.Pieces

variable (m : (ℓ : Loc nD τ sig) → Buf (Elt Ideal) ℓ) (ρ : Dev nD → PrngReg)

/-- The query array, the key memory and the value memory as the region finds them. -/
abbrev Qa (c : Dev nD) : SQ.Idx → EReal := V m c main_v2
abbrev Ka (c : Dev nD) : SMem.Idx → EReal := V m c main_arg1
abbrev Va (c : Dev nD) : SMem.Idx → EReal := V m c main_v3

/-- The index maps over the grid: the query and output blocks move with `t / 256`, the memory blocks with `t % 256`. -/
theorem idx_facts : ∀ t : Fin cfg0.N, win0_0.index t (0 : Fin 2) = t.val / 256 ∧ win0_0.index t (1 : Fin 2) = 0
    ∧ win0_1.index t (0 : Fin 2) = t.val % 256 ∧ win0_1.index t (1 : Fin 2) = 0
    ∧ win0_2.index t (0 : Fin 2) = t.val % 256 ∧ win0_2.index t (1 : Fin 2) = 0
    ∧ win0_3.index t (0 : Fin 2) = t.val / 256 ∧ win0_3.index t (1 : Fin 2) = 0 :=
  (by decide +kernel : ∀ t : Fin grid0.N, _)

theorem N512 : cfg0.N = 512 := N_0

theorem div_lt (t : Fin cfg0.N) : t.val / 256 < 2 := by have h : t.val < 512 := lt_of_lt_of_eq t.isLt N512; omega
theorem mod_lt (t : Fin cfg0.N) : t.val % 256 < 256 := Nat.mod_lt _ (by decide)

/-- The query block at point `t`: rows `1024 (t / 256) + p` of the query array. -/
theorem queryBlock_apply (c : Dev nD) (t : Fin cfg0.N) (p : Fin 1024) (d : Fin 512) :
    (iblk m c 0 t : Vec Ideal S1024x512 .f32) (ix2 p d) = Qa m c (ix2 (qRow (t.val / 256) (div_lt t) p) d) := by
  obtain ⟨e0, e1, -⟩ := idx_facts t
  unfold iblk
  rw [View.read_apply]
  show V m c main_v2 _ = V m c main_v2 _
  congr 1
  funext ax
  apply Fin.ext
  match ax with
  | ⟨0, _⟩ => show win0_0.index t (0 : Fin 2) * 1024 + 1 * p.val = 1024 * (t.val / 256) + p.val; rw [e0]; omega
  | ⟨1, _⟩ => show win0_0.index t (1 : Fin 2) * 512 + 1 * d.val = d.val; rw [e1]; omega

/-- The key block at point `t`: rows `512 (t % 256) + k` of the key memory. -/
theorem keyBlock_apply (c : Dev nD) (t : Fin cfg0.N) (k : Fin 512) (d : Fin 512) :
    (iblk m c 1 t : Vec Ideal S512x512 .f32) (ix2 k d) = Ka m c (ix2 (memRow (t.val % 256) (mod_lt t) k) d) := by
  obtain ⟨-, -, e0, e1, -⟩ := idx_facts t
  unfold iblk
  rw [View.read_apply]
  show V m c main_arg1 _ = V m c main_arg1 _
  congr 1
  funext ax
  apply Fin.ext
  match ax with
  | ⟨0, _⟩ => show win0_1.index t (0 : Fin 2) * 512 + 1 * k.val = 512 * (t.val % 256) + k.val; rw [e0]; omega
  | ⟨1, _⟩ => show win0_1.index t (1 : Fin 2) * 512 + 1 * d.val = d.val; rw [e1]; omega

/-- The value block at point `t`: the same rows of the value memory. -/
theorem valueBlock_apply (c : Dev nD) (t : Fin cfg0.N) (k : Fin 512) (d : Fin 512) :
    (iblk m c 2 t : Vec Ideal S512x512 .bf16) (ix2 k d) = Va m c (ix2 (memRow (t.val % 256) (mod_lt t) k) d) := by
  obtain ⟨-, -, -, -, e0, e1, -⟩ := idx_facts t
  unfold iblk
  rw [View.read_apply]
  show V m c main_v3 _ = V m c main_v3 _
  congr 1
  funext ax
  apply Fin.ext
  match ax with
  | ⟨0, _⟩ => show win0_2.index t (0 : Fin 2) * 512 + 1 * k.val = 512 * (t.val % 256) + k.val; rw [e0]; omega
  | ⟨1, _⟩ => show win0_2.index t (1 : Fin 2) * 512 + 1 * d.val = d.val; rw [e1]; omega

/-- What the two carried buffers (and, at a query block's last point, the output block) hold after point `n`. -/
def Holds (c : Dev nD) (n : ℕ) (hn : n < cfg0.N) : Prop :=
  (∀ p : Fin 1024, (outsAt0 m c n hn).2.1 (ix2 p (0 : Fin 1))
      = runMax (scoreBlock (Qa m c) (Ka m c) (qRow (n / 256) (div_lt ⟨n, hn⟩) p)) (n % 256 + 1))
  ∧ (∀ (p : Fin 1024) (d : Fin 512), (outsAt0 m c n hn).2.2 (ix2 p d)
      = runAcc (scoreBlock (Qa m c) (Ka m c) (qRow (n / 256) (div_lt ⟨n, hn⟩) p)) (valueBlock (Va m c) d) (n % 256 + 1))
  ∧ (n % 256 = 255 → ∀ (p : Fin 1024) (d : Fin 512), (outsAt0 m c n hn).1 (ix2 p d)
      = runAcc (scoreBlock (Qa m c) (Ka m c) (qRow (n / 256) (div_lt ⟨n, hn⟩) p)) (valueBlock (Va m c) d) 256)

/-- The first point of a query block: the step from the reset values. -/
theorem holds_first (c : Dev nD) (t : Fin cfg0.N) (h0 : t.val % 256 = 0) : Holds m c t.val t.isLt := by
  have h1 : ¬t.val % 256 = 255 := by omega
  have hst := step (Qa m c) (Ka m c) (Va m c) (t.val / 256) (t.val % 256) (div_lt t) (mod_lt t)
    (iblk m c 0 t) (iblk m c 1 t) (iblk m c 2 t) (k0_pay1 (F := Ideal)) (k0_pay2 (F := Ideal))
    (queryBlock_apply m c t) (keyBlock_apply m c t) (valueBlock_apply m c t)
    (fun p => by rw [resetMax_apply, h0]; rfl) (fun p d => by rw [resetAcc_apply, h0]; rfl)
  unfold Holds
  rw [outsAt0_A m c t h0 h1]
  dsimp only
  rw [scratchMax_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
    scratchAcc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)]
  exact ⟨hst.1, hst.2, fun h => absurd h h1⟩

/-- A later point of a query block: the step from what the point before left. -/
theorem holds_next (c : Dev nD) (t : Fin cfg0.N) (h0 : ¬t.val % 256 = 0)
    (hprev : Holds m c (t.val - 1) (Nat.lt_of_le_of_lt (Nat.sub_le _ _) t.isLt)) : Holds m c t.val t.isLt := by
  have hlt : t.val - 1 < cfg0.N := Nat.lt_of_le_of_lt (Nat.sub_le _ _) t.isLt
  have hdiv : (t.val - 1) / 256 = t.val / 256 := by omega
  have hmod : (t.val - 1) % 256 + 1 = t.val % 256 := by omega
  have hq : ∀ p : Fin 1024, qRow ((t.val - 1) / 256) (div_lt ⟨t.val - 1, hlt⟩) p = qRow (t.val / 256) (div_lt t) p := fun p =>
    Fin.ext (by show 1024 * ((t.val - 1) / 256) + p.val = 1024 * (t.val / 256) + p.val; rw [hdiv])
  obtain ⟨pm, pa, -⟩ := hprev
  have hst := step (Qa m c) (Ka m c) (Va m c) (t.val / 256) (t.val % 256) (div_lt t) (mod_lt t)
    (iblk m c 0 t) (iblk m c 1 t) (iblk m c 2 t) (outsAt0 m c (t.val - 1) hlt).2.1 (outsAt0 m c (t.val - 1) hlt).2.2
    (queryBlock_apply m c t) (keyBlock_apply m c t) (valueBlock_apply m c t)
    (fun p => by rw [pm p, hq p, hmod]) (fun p d => by rw [pa p d, hq p, hmod])
  unfold Holds
  by_cases h1 : t.val % 256 = 255
  · rw [outsAt0_C m c t h0 h1]
    dsimp only
    rw [outBlock_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) hlt).2.1 (outsAt0 m c (t.val - 1) hlt).2.2,
      scratchMax_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) hlt).2.1 (outsAt0 m c (t.val - 1) hlt).2.2,
      scratchAcc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) hlt).2.1 (outsAt0 m c (t.val - 1) hlt).2.2]
    exact ⟨hst.1, hst.2, fun _ p d => by rw [hst.2 p d, h1]⟩
  · rw [outsAt0_B m c t h0 h1]
    dsimp only
    rw [scratchMax_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) hlt).2.1 (outsAt0 m c (t.val - 1) hlt).2.2,
      scratchAcc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) hlt).2.1 (outsAt0 m c (t.val - 1) hlt).2.2]
    exact ⟨hst.1, hst.2, fun h => absurd h h1⟩

/-- After every point, by induction on the point. -/
theorem holds (c : Dev nD) : ∀ (n : ℕ) (hn : n < cfg0.N), Holds m c n hn
  | 0, hn => holds_first m c ⟨0, hn⟩ rfl
  | n + 1, hn => by
    by_cases h0 : (n + 1) % 256 = 0
    · exact holds_first m c ⟨n + 1, hn⟩ h0
    · exact holds_next m c ⟨n + 1, hn⟩ h0 (holds c n (Nat.lt_of_succ_lt hn))

/-- The one-pass retrieved rows of the arrays the region finds. -/
abbrev Ya (c : Dev nD) : SQ.Idx → EReal := onePassRetrieved (Qa m c) (Ka m c) (Va m c)

/-- What a writing point writes back is its block of the one-pass retrieved rows. -/
theorem flushed_eq (c : Dev nD) (t : Fin cfg0.N) (hf : (cfg0.win 3).flush t = true) :
    (dats m 0 c).flushed 3 t = ((cfg0.win 3).blk t).view.read (Elt Ideal) (Ya m c) := by
  have h255 : t.val % 256 = 255 := (flush0_3 t).mp hf
  obtain ⟨-, -, -, -, -, -, e0, e1⟩ := idx_facts t
  show (cfg0.win 3).cut (grid0.coords t) ((dats m 0 c).after 3 t) = _
  rw [after0_3]
  funext y
  obtain ⟨p, d, rfl⟩ : ∃ (p : Fin 1024) (d : Fin 512), y = ix2 p d := ⟨y 0, y 1, eq_ix2 y⟩
  show (outsAt0 m c t.val t.isLt).1 (ix2 p d) = Ya m c (((cfg0.win 3).blk t).view.emb (ix2 p d))
  rw [(holds m c t.val t.isLt).2.2 h255 p d]
  have he : ((cfg0.win 3).blk t).view.emb (ix2 p d) = ix2 (qRow (t.val / 256) (div_lt t) p) d := by
    funext ax
    apply Fin.ext
    match ax with
    | ⟨0, _⟩ => show win0_3.index t (0 : Fin 2) * 1024 + 1 * p.val = 1024 * (t.val / 256) + p.val; rw [e0]; omega
    | ⟨1, _⟩ => show win0_3.index t (1 : Fin 2) * 512 + 1 * d.val = d.val; rw [e1]; omega
  rw [he]
  rfl

/-- An index of the output array is in point `t`'s block iff each coordinate is in the block's range. -/
theorem mem_blk (t : Fin cfg0.N) (i : S2048x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- Every index is in the block written at the last point of its query block. -/
theorem cover (i : S2048x512.Idx) : ∃ t : Fin cfg0.N, (cfg0.win 3).flush t = true ∧ i ∈ ((cfg0.win 3).blk t).view.set := by
  have hi0 : (i 0).val < 2048 := (i 0).isLt
  have hi1 : (i 1).val < 512 := (i 1).isLt
  have hlt : 256 * ((i 0).val / 1024) + 255 < cfg0.N := by rw [N512]; omega
  refine ⟨⟨256 * ((i 0).val / 1024) + 255, hlt⟩, (flush0_3 _).mpr (by show (256 * ((i 0).val / 1024) + 255) % 256 = 255; omega), ?_⟩
  obtain ⟨-, -, -, -, -, -, e0, e1⟩ := idx_facts ⟨256 * ((i 0).val / 1024) + 255, hlt⟩
  rw [mem_blk]
  intro a
  match a with
  | ⟨0, _⟩ =>
    show win0_3.index ⟨256 * ((i 0).val / 1024) + 255, hlt⟩ (0 : Fin 2) * 1024 ≤ (i 0).val ∧ (i 0).val < win0_3.index ⟨256 * ((i 0).val / 1024) + 255, hlt⟩ (0 : Fin 2) * 1024 + 1024
    rw [e0]
    show (256 * ((i 0).val / 1024) + 255) / 256 * 1024 ≤ (i 0).val ∧ (i 0).val < (256 * ((i 0).val / 1024) + 255) / 256 * 1024 + 1024
    omega
  | ⟨1, _⟩ =>
    show win0_3.index ⟨256 * ((i 0).val / 1024) + 255, hlt⟩ (1 : Fin 2) * 512 ≤ (i 1).val ∧ (i 1).val < win0_3.index ⟨256 * ((i 0).val / 1024) + 255, hlt⟩ (1 : Fin 2) * 512 + 512
    rw [e1]
    omega

/-- The region's output array after the run: the one-pass retrieved rows. -/
theorem final (c : Dev nD) : (dats m 0 c).arrAt 3 cfg0.N = Ya m c :=
  (dats m 0 c).arrAt_eq_of_cover 3 (Ya m c) (flushed_eq m c) (cover)

end Cert.KernelIdeal.RegionValue

end
-- ==== Proof.HostNormalize.lean ====
/-
  Row normalisation and the final blend, as the host programs spell them, read on the extended reals.

  The host divides an array `a : [2048, 512]` by the broadcast of the square roots of its rows' sums of squares: the
  sum starts from the zero word, which denotes `0`; the vector of sums is placed on axis 0 of a column `[2048, 1]`,
  the square root is taken, and the column is spread over the 512 features. Index by index that is
  `Retrieval.unit` of the row. The final blend multiplies the query rows and the normalised retrieved rows by the
  broadcast word of one half, adds them and normalises again: `Retrieval.finish`.

  The shape facts the operations take are hypotheses here, so the lemmas apply to any program that spells these
  operations at these shapes, whichever proofs of the facts it carries.
-/
import Idealize.ShloMosaic.Lib.ValueIdx
import Idealize.ShloMosaic.Lib.Pipeline.Value
import Idealize.ShloMosaic.PureOps.Ideal.Laws
import proofs.«123042_j68418829025564_2_alg».proof.Proof.RetrievalArrays
import proofs.«123042_j68418829025564_2_alg».proof.Proof.Gen.ReferenceIdeal

noncomputable section

open scoped BigOperators

namespace Retrieval

open Idealize.ShloMosaic Idealize.ShloMosaic.ValueIdx

/-- A vector with one entry per query row. -/
abbrev SRow : Shape := ⟨1, ![2048]⟩
/-- The same as a column. -/
abbrev SCol : Shape := ⟨2, ![2048, 1]⟩
/-- The scalar shape. -/
abbrev SScalar : Shape := ⟨0, ![]⟩

section Layout
variable {α : Type}

/-- A column spread over the 512 features reads, at `(b, d)`, the column at `b`. -/
theorem colOver_apply (hb1 : SCol.BroadcastsInDim SQ (![0, 1] : Fin 2 → Fin SQ.rank)) (y : SCol.Idx → α)
    (b : Fin 2048) (d : Fin 512) : broadcastInDim SQ ![0, 1] hb1 y (ix2 b d) = y (ix2 b (0 : Fin 1)) :=
  broadcastInDim_apply _ hb1 y (ix2 b d) (ix2 b (0 : Fin 1)) (fun c => match c with
    | ⟨0, _⟩ => by show b.val = if (2048 : Nat) = 1 then 0 else b.val; rw [if_neg (by decide)]
    | ⟨1, _⟩ => by show 0 = if (1 : Nat) = 1 then 0 else d.val; rw [if_pos rfl])

/-- A vector placed on axis 0 of a column reads, at `(b, u)`, the vector at `b`. -/
theorem rowAsCol_apply (hb0 : SRow.BroadcastsInDim SCol (![0] : Fin 1 → Fin SCol.rank)) (y : SRow.Idx → α)
    (b : Fin 2048) (u : Fin 1) : broadcastInDim SCol ![0] hb0 y (ix2 b u) = y (ix1 b) :=
  broadcastInDim_apply _ hb0 y (ix2 b u) (ix1 b) (fun c => match c with
    | ⟨0, _⟩ => by show b.val = if (2048 : Nat) = 1 then 0 else b.val; rw [if_neg (by decide)])

/-- A scalar spread over the array reads its one element everywhere. -/
theorem scalarOver_apply (hbs : SScalar.BroadcastsInDim SQ (![] : Fin 0 → Fin SQ.rank)) (y : SScalar.Idx → α)
    (i : SQ.Idx) : broadcastInDim SQ ![] hbs y i = y ix0 :=
  broadcastInDim_apply _ hbs y i ix0 (fun c => c.elim0)

end Layout

/-- The host's sum over the features, from the zero word, is the sum of the row. -/
theorem rowSum_apply (hr : SQ.ReducesTo [1] SRow) (hs : 0 < SScalar.numel) (y : FVec Ideal SQ .f32) (b : Fin 2048) :
    Host.reduceAdd (F := Ideal) y (constant (F := Ideal) SScalar .f32 0x00000000#32) hr hs (ix1 b)
      = ∑ e : Fin 512, y (ix2 b e) := by
  simp only [Host.reduceAdd, Ideal.hostReduceAdd_def]
  rw [Ideal.hostReduceAdd_single hr (by decide)]
  show Ideal.ofBits .f32 0x00000000#32 + _ = _
  rw [Ideal.ofBits_zero_f32, zero_add]
  refine Finset.sum_congr rfl fun k _ => ?_
  exact congrArg y (funext fun c => Fin.ext (by match c with | ⟨0, _⟩ => rfl | ⟨1, _⟩ => rfl))

/-- The host's row normalisation: each element over the square root of its row's sum of squares. -/
def hostNormRows (hr : SQ.ReducesTo [1] SRow) (hs : 0 < SScalar.numel)
    (hb0 : SRow.BroadcastsInDim SCol (![0] : Fin 1 → Fin SCol.rank))
    (hb1 : SCol.BroadcastsInDim SQ (![0, 1] : Fin 2 → Fin SQ.rank)) (a : FVec Ideal SQ .f32) : FVec Ideal SQ .f32 :=
  Host.divf (F := Ideal) a (broadcastInDim SQ ![0, 1] hb1 (Host.sqrt (F := Ideal) (broadcastInDim SCol ![0] hb0
    (Host.reduceAdd (F := Ideal) (mulf (F := Ideal) a a) (constant (F := Ideal) SScalar .f32 0x00000000#32) hr hs))))

/-- Index by index it is the row divided by its Euclidean norm. -/
theorem hostNormRows_eq (hr : SQ.ReducesTo [1] SRow) (hs : 0 < SScalar.numel)
    (hb0 : SRow.BroadcastsInDim SCol (![0] : Fin 1 → Fin SCol.rank))
    (hb1 : SCol.BroadcastsInDim SQ (![0, 1] : Fin 2 → Fin SQ.rank)) (a : FVec Ideal SQ .f32) :
    hostNormRows hr hs hb0 hb1 a = fun i => unit (rowOf a (i 0)) (i 1) := by
  funext i
  obtain ⟨b, d, rfl⟩ : ∃ (b : Fin 2048) (d : Fin 512), i = ix2 b d := ⟨i 0, i 1, eq_ix2 i⟩
  show Ideal.div (a (ix2 b d)) (broadcastInDim SQ ![0, 1] hb1 (Host.sqrt (F := Ideal) (broadcastInDim SCol ![0] hb0
    (Host.reduceAdd (F := Ideal) (mulf (F := Ideal) a a) (constant (F := Ideal) SScalar .f32 0x00000000#32) hr hs)))
    (ix2 b d)) = _
  rw [colOver_apply]
  show Ideal.div (a (ix2 b d)) (Ideal.sqrt (broadcastInDim SCol ![0] hb0
    (Host.reduceAdd (F := Ideal) (mulf (F := Ideal) a a) (constant (F := Ideal) SScalar .f32 0x00000000#32) hr hs)
    (ix2 b (0 : Fin 1)))) = _
  rw [rowAsCol_apply, rowSum_apply]
  rfl

/-- The host's final blend: the query rows and the normalised retrieved rows, each times the word of one half,
    added and normalised. -/
def hostFinish (hr : SQ.ReducesTo [1] SRow) (hs : 0 < SScalar.numel)
    (hb0 : SRow.BroadcastsInDim SCol (![0] : Fin 1 → Fin SCol.rank))
    (hb1 : SCol.BroadcastsInDim SQ (![0, 1] : Fin 2 → Fin SQ.rank))
    (hbs : SScalar.BroadcastsInDim SQ (![] : Fin 0 → Fin SQ.rank)) (q R : FVec Ideal SQ .f32) : FVec Ideal SQ .f32 :=
  hostNormRows hr hs hb0 hb1 (addf (F := Ideal)
    (mulf (F := Ideal) (broadcastInDim SQ ![] hbs (constant (F := Ideal) SScalar .f32 0x3F000000#32)) q)
    (mulf (F := Ideal) (broadcastInDim SQ ![] hbs (constant (F := Ideal) SScalar .f32 0x3F000000#32))
      (hostNormRows hr hs hb0 hb1 R)))

/-- Index by index it is the unit vector of the mean of the query row and the unit retrieved row. -/
theorem hostFinish_eq (hr : SQ.ReducesTo [1] SRow) (hs : 0 < SScalar.numel)
    (hb0 : SRow.BroadcastsInDim SCol (![0] : Fin 1 → Fin SCol.rank))
    (hb1 : SCol.BroadcastsInDim SQ (![0, 1] : Fin 2 → Fin SQ.rank))
    (hbs : SScalar.BroadcastsInDim SQ (![] : Fin 0 → Fin SQ.rank)) (q R : FVec Ideal SQ .f32) :
    hostFinish hr hs hb0 hb1 hbs q R = finish q R := by
  unfold hostFinish
  rw [hostNormRows_eq hr hs hb0 hb1 R, hostNormRows_eq]
  funext i
  obtain ⟨b, d, rfl⟩ : ∃ (b : Fin 2048) (d : Fin 512), i = ix2 b d := ⟨i 0, i 1, eq_ix2 i⟩
  show unit (rowOf _ b) d = unit (blend halfW (rowOf q b) (rowOf R b)) d
  refine congrArg (fun r : Fin 512 → EReal => unit r d) (funext fun e => ?_)
  show broadcastInDim SQ ![] hbs (constant (F := Ideal) SScalar .f32 0x3F000000#32) (ix2 b e) * q (ix2 b e)
      + broadcastInDim SQ ![] hbs (constant (F := Ideal) SScalar .f32 0x3F000000#32) (ix2 b e) * unit (rowOf R b) e
    = halfW * q (ix2 b e) + halfW * unit (rowOf R b) e
  rw [scalarOver_apply]
  rfl

end Retrieval

/-! ## The same two facts in the reference program's own spelling -/

namespace Cert.ReferenceIdeal.RefValue

open Cert.ReferenceIdeal Cert.ReferenceIdeal.Gen Idealize.ShloMosaic

/-- The reference's row normalisation of an array is `Retrieval.unit` of each row. -/
theorem normRows_eq (a : FVec Ideal S2048x512 .f32) :
    Host.divf (F := Ideal) a (broadcastInDim S2048x512 ![0, 1] bcast_S2048x1_S2048x512_0_1 (Host.sqrt (F := Ideal)
      (broadcastInDim S2048x1 ![0] bcast_S2048_S2048x1_0 (Host.reduceAdd (F := Ideal) (mulf (F := Ideal) a a)
        (constant (F := Ideal) S_ .f32 0x00000000#32) reducesTo_S2048x512_S2048_d1 h_S_))))
      = fun i => Retrieval.unit (Retrieval.rowOf a (i 0)) (i 1) :=
  Retrieval.hostNormRows_eq reducesTo_S2048x512_S2048_d1 h_S_ bcast_S2048_S2048x1_0 bcast_S2048x1_S2048x512_0_1 a

/-- The reference's final blend of the query rows `q` and the retrieved rows `R` is `Retrieval.finish q R`. -/
theorem finish_eq (q R : FVec Ideal S2048x512 .f32) :
    Host.divf (F := Ideal)
      (addf (F := Ideal)
        (mulf (F := Ideal) (broadcastInDim S2048x512 ![] bcast_S_S2048x512 (constant (F := Ideal) S_ .f32 0x3F000000#32)) q)
        (mulf (F := Ideal) (broadcastInDim S2048x512 ![] bcast_S_S2048x512 (constant (F := Ideal) S_ .f32 0x3F000000#32))
          (Host.divf (F := Ideal) R (broadcastInDim S2048x512 ![0, 1] bcast_S2048x1_S2048x512_0_1 (Host.sqrt (F := Ideal)
            (broadcastInDim S2048x1 ![0] bcast_S2048_S2048x1_0 (Host.reduceAdd (F := Ideal) (mulf (F := Ideal) R R)
              (constant (F := Ideal) S_ .f32 0x00000000#32) reducesTo_S2048x512_S2048_d1 h_S_)))))))
      (broadcastInDim S2048x512 ![0, 1] bcast_S2048x1_S2048x512_0_1 (Host.sqrt (F := Ideal)
        (broadcastInDim S2048x1 ![0] bcast_S2048_S2048x1_0 (Host.reduceAdd (F := Ideal)
          (mulf (F := Ideal)
            (addf (F := Ideal)
              (mulf (F := Ideal) (broadcastInDim S2048x512 ![] bcast_S_S2048x512 (constant (F := Ideal) S_ .f32 0x3F000000#32)) q)
              (mulf (F := Ideal) (broadcastInDim S2048x512 ![] bcast_S_S2048x512 (constant (F := Ideal) S_ .f32 0x3F000000#32))
                (Host.divf (F := Ideal) R (broadcastInDim S2048x512 ![0, 1] bcast_S2048x1_S2048x512_0_1 (Host.sqrt (F := Ideal)
                  (broadcastInDim S2048x1 ![0] bcast_S2048_S2048x1_0 (Host.reduceAdd (F := Ideal) (mulf (F := Ideal) R R)
                    (constant (F := Ideal) S_ .f32 0x00000000#32) reducesTo_S2048x512_S2048_d1 h_S_)))))))
            (addf (F := Ideal)
              (mulf (F := Ideal) (broadcastInDim S2048x512 ![] bcast_S_S2048x512 (constant (F := Ideal) S_ .f32 0x3F000000#32)) q)
              (mulf (F := Ideal) (broadcastInDim S2048x512 ![] bcast_S_S2048x512 (constant (F := Ideal) S_ .f32 0x3F000000#32))
                (Host.divf (F := Ideal) R (broadcastInDim S2048x512 ![0, 1] bcast_S2048x1_S2048x512_0_1 (Host.sqrt (F := Ideal)
                  (broadcastInDim S2048x1 ![0] bcast_S2048_S2048x1_0 (Host.reduceAdd (F := Ideal) (mulf (F := Ideal) R R)
                    (constant (F := Ideal) S_ .f32 0x00000000#32) reducesTo_S2048x512_S2048_d1 h_S_))))))))
          (constant (F := Ideal) S_ .f32 0x00000000#32) reducesTo_S2048x512_S2048_d1 h_S_))))
      = Retrieval.finish q R :=
  Retrieval.hostFinish_eq reducesTo_S2048x512_S2048_d1 h_S_ bcast_S2048_S2048x1_0 bcast_S2048x1_S2048x512_0_1
    bcast_S_S2048x512 q R

end Cert.ReferenceIdeal.RefValue

end
-- ==== Proof.KernelHost.lean ====
/-
  The host operations of the one-pass program around its pipelined region, read on the extended reals.

  Before the region the program divides the rows of `x` by their norms (the query rows the region reads) and changes
  the format of the value memory, which on the extended reals is the identity. After the region it normalises the
  rows the region produced, averages them with the query rows and normalises again: `Retrieval.finish` of the query
  rows and the region's result.
-/
import proofs.«123042_j68418829025564_2_alg».proof.Proof.Gen.KernelIdeal.Frame
import proofs.«123042_j68418829025564_2_alg».proof.Proof.HostNormalize
import Idealize.ShloMosaic.Lib.StableHlo.Run
import Idealize.ShloMosaic.Lib.Pipeline.Value
import Idealize.ShloMosaic.Lib.Tactic

noncomputable section

namespace Cert.KernelIdeal.HostValue

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-! ## Before the region -/

/-- The region finds the query rows in its first window's array. -/
theorem query_found (c : Dev nD) :
    (V m c main_v2 : S2048x512.Idx → EReal) = Retrieval.query (m ((c : Thread nD τ).loc main_arg0)) := by
  have e : (V m c main_v2 : S2048x512.Idx → EReal)
      = Retrieval.hostNormRows reducesTo_S2048x512_S2048_d1 h_S_ bcast_S2048_S2048x1_0 bcast_S2048x1_S2048x512_0_1
          (m ((c : Thread nD τ).loc main_arg0)) := by
    dsimp only [Gen.V, Gen.V0]
    simp only [Gen.hostOps0, Gen.hostOps0_1, List.flatten_cons, List.flatten_nil, List.append_nil, List.cons_append,
      List.nil_append]
    after_results
    rfl
  rw [e, Retrieval.hostNormRows_eq]
  rfl

/-- The region finds the value memory itself in its third window's array: the change of format is the identity. -/
theorem values_found (c : Dev nD) :
    (V m c main_v3 : S131072x512.Idx → EReal) = m ((c : Thread nD τ).loc main_arg2) := by
  dsimp only [Gen.V, Gen.V0]
  simp only [Gen.hostOps0, Gen.hostOps0_1, List.flatten_cons, List.flatten_nil, List.append_nil, List.cons_append,
    List.nil_append]
  after_results
  rfl

/-! ## After the region -/

/-- The program's result: `Retrieval.finish` of the query rows and the rows the region leaves in its output array. -/
theorem result_value (c : Dev nD) (Y : S2048x512.Idx → EReal) (hY : (dats m 0 c).arrAt 3 cfg0.N = Y) :
    Pipeline.afterTail₀ cfgs (dats m) 0 (V0 m) [hostOps1, hostOps1_1, hostOps1_2, hostOps1_3] c main_v15
      = Retrieval.finish (V m c main_v2) Y := by
  unfold Pipeline.afterTail₀
  show StableHlo.after (List.flatten [hostOps1, hostOps1_1, hostOps1_2, hostOps1_3])
      (Pipeline.withArrays spec0 c (V0 m c) fun w => (dats m 0 c).arrAt w cfg0.N) (Proc.devRef .tc main_v15) = _
  generalize hW : Pipeline.withArrays spec0 c (V0 m c) (fun w => (dats m 0 c).arrAt w cfg0.N) = W
  have h4 : (W (Proc.devRef .tc main_v4) : S2048x512.Idx → EReal) = Y := by
    rw [← hW]
    exact (Pipeline.withArrays_arr spec0 launch0.win.arr_inj c _ _ 3).trans hY
  have h2 : (W (Proc.devRef .tc main_v2) : S2048x512.Idx → EReal) = V m c main_v2 := by
    rw [← hW]
    exact (Pipeline.withArrays_arr spec0 launch0.win.arr_inj c _ _ 0).trans
      (((dats m 0 c).arrAt_in 0 rfl _).trans (A_eq m c 0))
  clear hW
  generalize (V m c main_v2 : S2048x512.Idx → EReal) = q at h2 ⊢
  simp only [Gen.hostOps1, Gen.hostOps1_1, Gen.hostOps1_2, Gen.hostOps1_3, List.flatten_cons, List.flatten_nil,
    List.append_nil, List.cons_append, List.nil_append]
  after_results
  rw [h4, h2]
  exact Retrieval.hostFinish_eq reducesTo_S2048x512_S2048_d1 h_S_ bcast_S2048_S2048x1_0 bcast_S2048x1_S2048x512_0_1
    bcast_S_S2048x512 q Y

end Cert.KernelIdeal.HostValue

end
-- ==== Proof.KernelRun.lean ====
/-
  The idealized kernel program, run: the result array is the one-pass result of the three argument arrays.

  The region's output array holds the one-pass retrieved rows of the query, key and value arrays as the region finds
  them; the host operations before the region leave the unit query rows and the value memory there and the key memory
  untouched; the host operations after the region finish the query rows with the region's output. Put together,
  the result buffer is `finish (query x) (onePassRetrieved (query x) K V) = onePassResult x K V`, and the three
  argument arrays end as they were launched.
-/
import proofs.«123042_j68418829025564_2_alg».proof.Proof.RegionValue
import proofs.«123042_j68418829025564_2_alg».proof.Proof.KernelHost

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

/-- What the lines after the region leave in the result buffer: the one-pass result of the launched arguments. -/
theorem result_eq (c : Dev nD) :
    Pipeline.afterTail₀ cfgs (dats m) 0 (V0 m) [hostOps1, hostOps1_1, hostOps1_2, hostOps1_3] c main_v15
      = Retrieval.onePassResult (m ((c : Thread nD τ).loc main_arg0)) (m ((c : Thread nD τ).loc main_arg1))
          (m ((c : Thread nD τ).loc main_arg2)) := by
  rw [HostValue.result_value m c
      (Retrieval.onePassRetrieved (V m c main_v2) (V m c main_arg1) (V m c main_v3)) (RegionValue.final m c),
    HostValue.query_found m c, V_main_arg1 m c, HostValue.values_found m c]
  rfl

/-- The idealized kernel program runs; its result is the one-pass result and its arguments end as launched. -/
theorem run : θ_run defs (onTc (τ := τ) (main (F := Ideal))) ⟨m, fun _ => 0, ρ⟩ (fun r => ∀ c : Dev nD,
      r.2.mem ((c.tc : Thread nD τ).loc main_v15)
        = Retrieval.onePassResult (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.ReferenceValue.lean ====
/-
  The reference program's result, at the extended reals, is the specification `Retrieval.refResult` of the three
  argument arrays, index by index.

  Stage by stage: a row's norm is the square root of the sum of its squares (the sum starts from the zero word, which
  denotes `0`), so the first quotient is the query `Retrieval.query`; a score is the inner product over the 512
  features divided by the temperature word `0x3D8F5C29`, which denotes `9395241 / 2^27`, and dividing by a nonzero real
  is multiplying by its reciprocal; the row maximum is a supremum from the `-∞` word, which denotes `⊥`; the weights
  are the exponentials of the shifted scores over their sum; the retrieved row combines the value rows with them; and
  the result normalises the retrieved row, averages it with the query row and normalises again.
-/
import proofs.«123042_j68418829025564_2_alg».proof.Proof.Gen.ReferenceIdeal.Read
import proofs.«123042_j68418829025564_2_alg».proof.Proof.RetrievalArrays
import proofs.«123042_j68418829025564_2_alg».proof.Proof.LibExtremeReduce
import proofs.«123042_j68418829025564_2_alg».proof.Proof.HostNormalize
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The constants -/

/-- The temperature word denotes `9395241 / 2^27`. -/
theorem ofBits_temperature : Ideal.ofBits .f32 0x3D8F5C29#32 = ((9395241 / 134217728 : ℝ) : EReal) := by
  simp [Ideal.ofBits, Ideal.ieee, -EReal.coe_mul]; norm_num

/-- Dividing by the temperature is multiplying by its reciprocal. -/
theorem div_temperature (y : EReal) : Ideal.div y (Ideal.ofBits .f32 0x3D8F5C29#32) = y * Retrieval.invT := by
  rw [ofBits_temperature, Ideal.div_coe (by norm_num : (9395241 / 134217728 : ℝ) ≠ 0)]
  unfold Retrieval.invT
  norm_num

/-! ## The query rows -/

/-- The first quotient is the query. -/
theorem query_eq (x : FVec Ideal S2048x512 .f32) : val_main_v2 (F := Ideal) x = Retrieval.query x := by
  unfold val_main_v2 val_main_v1 val_main_v0 val_main_call0_v2 val_main_call0_v1 val_main_call0_v0 val_main_call0_cst
  exact normRows_eq x

/-! ## The scores -/

/-- A score: the inner product of query row `b` and memory row `i`, over the temperature. -/
theorem score_apply (x : FVec Ideal S2048x512 .f32) (K : FVec Ideal S131072x512 .f32) (b : Fin 2048) (i : Fin 131072) :
    val_main_v5 (F := Ideal) x K (ix2 b i) = Retrieval.score (Retrieval.query x) K b i := by
  rw [val_main_v5_apply, val_main_v3_apply, val_main_v4_apply, val_main_cst_apply, query_eq, Ideal.hostDivf_def,
    Ideal.ofBits_def, div_temperature]
  have hl : ∀ k : Fin 512, lidx_main_v3 (ix2 b i) k = ix2 b k :=
    fun k => funext fun a => Fin.ext (by match a with | ⟨0, _⟩ => rfl | ⟨1, _⟩ => rfl)
  have hr : ∀ k : Fin 512, ridx_main_v3 (ix2 b i) k = ix2 i k :=
    fun k => funext fun a => Fin.ext (by match a with | ⟨0, _⟩ => rfl | ⟨1, _⟩ => rfl)
  simp only [hl, hr]
  rfl

/-! ## The row maximum -/

/-- The maximum over the memory rows, from the `-∞` word, is the supremum of the row's scores. -/
theorem rowMax_apply (x : FVec Ideal S2048x512 .f32) (K : FVec Ideal S131072x512 .f32) (b : Fin 2048) :
    val_main_v6 (F := Ideal) x K (ix1 b) = ⨆ i : Fin 131072, Retrieval.score (Retrieval.query x) K b i := by
  have hred : S2048x131072.Reduces [1] S2048 := by decide
  unfold val_main_v6 val_main_cst_0
  refine (ExtremeReduce.hostReduce_max_single (val_main_v5 (F := Ideal) x K) reducesTo_S2048x131072_S2048_d1 hred h_S_
    (ix1 b)).trans ?_
  refine iSup_congr fun k => ?_
  have hk : hred.lift (ix1 b) k = ix2 b k :=
    funext fun a => Fin.ext (by match a with | ⟨0, _⟩ => rfl | ⟨1, _⟩ => rfl)
  rw [hk]
  exact score_apply x K b k

/-- The maximum against the broadcast `-∞` word, spread back over the memory rows. -/
theorem shift_apply (x : FVec Ideal S2048x512 .f32) (K : FVec Ideal S131072x512 .f32) (b : Fin 2048) (i : Fin 131072) :
    val_main_v10 (F := Ideal) x K (ix2 b i) = max ⊥ (⨆ i' : Fin 131072, Retrieval.score (Retrieval.query x) K b i') := by
  rw [val_main_v10_apply, val_main_v9_apply]
  have hi : idx_main_v9 (idx_main_v10 (ix2 b i)) = ix1 b :=
    funext fun a => Fin.ext (by match a with | ⟨0, _⟩ => rfl)
  rw [hi, val_main_v8_apply, val_main_v7_apply, val_main_cst_1_apply, rowMax_apply, Ideal.maximumf_def, Ideal.ofBits_def,
    ExtremeReduce.ofBits_negInf]

/-! ## The softmax weights -/

/-- The exponential of a shifted score. -/
theorem expShift_apply (x : FVec Ideal S2048x512 .f32) (K : FVec Ideal S131072x512 .f32) (b : Fin 2048) (i : Fin 131072) :
    val_main_v12 (F := Ideal) x K (ix2 b i)
      = Ideal.exp (Retrieval.score (Retrieval.query x) K b i
          - max ⊥ (⨆ i' : Fin 131072, Retrieval.score (Retrieval.query x) K b i')) := by
  rw [val_main_v12_apply, val_main_v11_apply, score_apply, shift_apply, Ideal.hostUnary_exp_def, Ideal.subf_def]

/-- The softmax denominator, spread back over the memory rows. -/
theorem denom_apply (x : FVec Ideal S2048x512 .f32) (K : FVec Ideal S131072x512 .f32) (b : Fin 2048) (i : Fin 131072) :
    val_main_v15 (F := Ideal) x K (ix2 b i)
      = ∑ i' : Fin 131072, Ideal.exp (Retrieval.score (Retrieval.query x) K b i'
          - max ⊥ (⨆ i'' : Fin 131072, Retrieval.score (Retrieval.query x) K b i'')) := by
  rw [val_main_v15_apply, val_main_v14_apply, val_main_v13_apply, val_main_cst_2_apply, Ideal.ofBits_def,
    Ideal.ofBits_zero_f32, zero_add]
  refine Finset.sum_congr rfl fun k _ => ?_
  have hk : idx_main_v13 (idx_main_v14 (idx_main_v15 (ix2 b i))) k = ix2 b k :=
    funext fun a => Fin.ext (by match a with | ⟨0, _⟩ => rfl | ⟨1, _⟩ => rfl)
  rw [hk, expShift_apply]

/-! ## The retrieved rows -/

/-- The specification's retrieved row at `(b, d)`: the softmax combination of row `b`'s scores with feature column `d`. -/
theorem refRetrieved_apply (q : Retrieval.SQ.Idx → EReal) (K V : Retrieval.SMem.Idx → EReal) (b : Fin 2048) (d : Fin 512) :
    Retrieval.refRetrieved q K V (ix2 b d)
      = Retrieval.softmaxCombine (Retrieval.score q K b) (fun m d => V (ix2 m d)) d := rfl

/-- The second product combines the value rows with the softmax weights. -/
theorem retrieved_eq (x : FVec Ideal S2048x512 .f32) (K V : FVec Ideal S131072x512 .f32) :
    val_main_v17 (F := Ideal) x K V = Retrieval.refRetrieved (Retrieval.query x) K V := by
  funext j
  obtain ⟨b, d, rfl⟩ : ∃ (b : Fin 2048) (d : Fin 512), j = ix2 b d := ⟨j 0, j 1, eq_ix2 j⟩
  rw [val_main_v17_apply, refRetrieved_apply]
  unfold Retrieval.softmaxCombine
  refine Finset.sum_congr rfl fun k _ => ?_
  have hl : lidx_main_v17 (ix2 b d) k = ix2 b k :=
    funext fun a => Fin.ext (by match a with | ⟨0, _⟩ => rfl | ⟨1, _⟩ => rfl)
  have hr : ridx_main_v17 (ix2 b d) k = ix2 k d :=
    funext fun a => Fin.ext (by match a with | ⟨0, _⟩ => rfl | ⟨1, _⟩ => rfl)
  rw [hl, hr, val_main_v16_apply, expShift_apply, denom_apply, Ideal.hostDivf_def]

/-! ## The result -/

/-- The reference's result is the specification. -/
theorem val_eq_refResult (x : FVec Ideal Cert.ReferenceIdeal.S2048x512 .f32)
    (K V : FVec Ideal Cert.ReferenceIdeal.S131072x512 .f32) :
    Cert.ReferenceIdeal.Read.val_main_v28 (F := Ideal) x K V = Retrieval.refResult x K V := by
  unfold val_main_v28 val_main_v27 val_main_v26 val_main_call2_v2 val_main_call2_v1 val_main_call2_v0 val_main_call2_cst
    val_main_v25 val_main_v24 val_main_v23 val_main_cst_4 val_main_v22 val_main_v21 val_main_cst_3 val_main_v20
    val_main_v19 val_main_v18 val_main_call1_v2 val_main_call1_v1 val_main_call1_v0 val_main_call1_cst
  rw [query_eq, retrieved_eq]
  exact finish_eq _ _

end Cert.ReferenceIdeal.RefValue

end
-- ==== Proof.OnePassSoftmax.lean ====
/-
  A softmax-weighted combination evaluated in one pass over blocks of the memory.

  The scores `S i` and the values `V i d` are real, and the memory has `N = B * J` rows visited in `J` blocks of `B`.
  After `n ≥ 1` blocks the running maximum is a real number `M_n`, the largest of the first `B * n` scores, and the
  running combination is `Σ_{i < B n} exp (S i - M_n) · V i d`: growing the maximum from `M_n` to `M_{n+1}` multiplies
  every old term by `exp (M_n - M_{n+1})`, and `exp (M_n - M_{n+1}) · exp (S i - M_n) = exp (S i - M_{n+1})`. After the
  last block this is the softmax combination times the positive normaliser `Σ_i exp (S i - M)`, and dividing a row by
  its Euclidean norm forgets a positive common factor.
-/
import Idealize.ShloMosaic.PureOps.Ideal
import proofs.«123042_j68418829025564_2_alg».proof.Proof.Retrieval

noncomputable section

open scoped BigOperators

namespace Retrieval

open Idealize.ShloMosaic

/-! ### Finite real sums inside the extended reals -/

/-- The coercion of a finite sum of reals is the sum of the coercions. -/
theorem coe_sum {ι : Type*} (s : Finset ι) (g : ι → ℝ) :
    ((∑ i ∈ s, g i : ℝ) : EReal) = ∑ i ∈ s, ((g i : ℝ) : EReal) := by
  classical
  refine Finset.induction_on s ?_ ?_
  · simp
  · intro a s ha ih
    rw [Finset.sum_insert ha, Finset.sum_insert ha, EReal.coe_add, ih]

/-- A real family on `Fin N` continued by zero to every natural position. -/
def zeroExt {N : ℕ} (g : Fin N → ℝ) (j : ℕ) : ℝ := if h : j < N then g ⟨j, h⟩ else 0

theorem zeroExt_of_lt {N : ℕ} (g : Fin N → ℝ) {j : ℕ} (h : j < N) : zeroExt g j = g ⟨j, h⟩ := dif_pos h

theorem zeroExt_coe {N : ℕ} (g : Fin N → ℝ) (i : Fin N) : zeroExt g i.val = g i := dif_pos i.isLt

/-- The supremum of a nonempty finite family of reals is one of them, so it is real. -/
theorem iSup_coe_real {B : ℕ} (hB : 0 < B) (x : Fin B → ℝ) :
    ∃ m : ℝ, (⨆ k, ((x k : ℝ) : EReal)) = (m : EReal) := by
  haveI : Nonempty (Fin B) := ⟨⟨0, hB⟩⟩
  obtain ⟨k0, hk0⟩ := exists_eq_ciSup_of_finite (f := fun k => ((x k : ℝ) : EReal))
  exact ⟨x k0, hk0.symm⟩

/-! ### The running maximum -/

/-- After `n` blocks the running maximum is the supremum of the scores at the positions below `B * n`. -/
theorem runMax_eq_supBelow {N B J : ℕ} (hN : B * J = N) (S : Fin N → ℝ) (sb : ℕ → Fin B → EReal)
    (hs : ∀ (j : ℕ) (k : Fin B) (h : B * j + k.val < N), sb j k = ((S ⟨B * j + k.val, h⟩ : ℝ) : EReal)) :
    ∀ n, n ≤ J → runMax sb n = OrderFold.supBelow (fun i => ((S i : ℝ) : EReal)) (B * n) := by
  intro n
  induction n with
  | zero => intro _; rw [runMax_zero, Nat.mul_zero, OrderFold.supBelow_zero]
  | succ n ih =>
    intro hn
    rw [runMax_succ, ih (Nat.le_of_succ_le hn)]
    exact OrderFold.max_supBelow_block (fun i => ((S i : ℝ) : EReal)) n (hN ▸ Nat.mul_le_mul_left B hn) (sb n)
      (fun r hr => hs n r hr)

/-- After at least one block of real scores the running maximum is a real number. -/
theorem runMax_real {B J : ℕ} (hB : 0 < B) (sb : ℕ → Fin B → EReal) (s' : ℕ → ℝ)
    (hs : ∀ j, j < J → ∀ k : Fin B, sb j k = ((s' (B * j + k.val) : ℝ) : EReal)) :
    ∀ n, n < J → ∃ m : ℝ, runMax sb (n + 1) = (m : EReal) := by
  intro n
  induction n with
  | zero =>
    intro h0
    obtain ⟨x, hx⟩ := iSup_coe_real hB (fun k : Fin B => s' (B * 0 + k.val))
    refine ⟨x, ?_⟩
    rw [runMax_succ, runMax_zero,
      show (⨆ k, sb 0 k) = ⨆ k : Fin B, ((s' (B * 0 + k.val) : ℝ) : EReal) from iSup_congr (hs 0 h0), hx]
    exact max_eq_right bot_le
  | succ n ih =>
    intro hn
    obtain ⟨m0, hm0⟩ := ih (Nat.lt_of_succ_lt hn)
    obtain ⟨x, hx⟩ := iSup_coe_real hB (fun k : Fin B => s' (B * (n + 1) + k.val))
    refine ⟨max m0 x, ?_⟩
    rw [runMax_succ, hm0,
      show (⨆ k, sb (n + 1) k) = ⨆ k : Fin B, ((s' (B * (n + 1) + k.val) : ℝ) : EReal)
        from iSup_congr (hs (n + 1) hn), hx]
    exact (EReal.coe_strictMono.monotone.map_max).symm

/-! ### One step of the running combination, in real terms -/

/-- The first step: the old maximum is `-∞`, the rescaling factor `exp (-∞) = 0` meets the empty combination `0`. -/
theorem step_bot {B : ℕ} (m : ℝ) (x y : Fin B → ℝ) :
    Ideal.exp ((⊥ : EReal) - (m : EReal)) * (0 : EReal)
      + ∑ k, Ideal.exp (((x k : ℝ) : EReal) - (m : EReal)) * ((y k : ℝ) : EReal)
    = ((∑ k, Real.exp (x k - m) * y k : ℝ) : EReal) := by
  rw [mul_zero, zero_add, coe_sum]
  refine Finset.sum_congr rfl fun k _ => ?_
  rw [← EReal.coe_sub, Ideal.exp_coe, EReal.coe_mul]

/-- A later step: old maximum, new maximum and old combination are real, and so is the result. -/
theorem step_real {B : ℕ} (m0 m a : ℝ) (x y : Fin B → ℝ) :
    Ideal.exp ((m0 : EReal) - (m : EReal)) * (a : EReal)
      + ∑ k, Ideal.exp (((x k : ℝ) : EReal) - (m : EReal)) * ((y k : ℝ) : EReal)
    = ((Real.exp (m0 - m) * a + ∑ k, Real.exp (x k - m) * y k : ℝ) : EReal) := by
  rw [EReal.coe_add, coe_sum, ← EReal.coe_sub, Ideal.exp_coe, EReal.coe_mul]
  congr 1

/-! ### The running combination in closed form -/

/-- After `n + 1` blocks, with running maximum the real `m`, the running combination is
    `Σ_{j < B (n+1)} exp (s j - m) · v j`. -/
theorem runAcc_closed {B J : ℕ} (hB : 0 < B) (sb vb : ℕ → Fin B → EReal) (s' v' : ℕ → ℝ)
    (hs : ∀ j, j < J → ∀ k : Fin B, sb j k = ((s' (B * j + k.val) : ℝ) : EReal))
    (hv : ∀ j, j < J → ∀ k : Fin B, vb j k = ((v' (B * j + k.val) : ℝ) : EReal)) :
    ∀ n, n < J → ∀ m : ℝ, runMax sb (n + 1) = (m : EReal) →
      runAcc sb vb (n + 1)
        = ((∑ j ∈ Finset.range (B * (n + 1)), Real.exp (s' j - m) * v' j : ℝ) : EReal) := by
  intro n
  induction n with
  | zero =>
    intro h0 m hm
    rw [runAcc_succ, runAcc_zero, runMax_zero, hm]
    simp only [hs 0 h0, hv 0 h0]
    rw [step_bot m (fun k : Fin B => s' (B * 0 + k.val)) (fun k : Fin B => v' (B * 0 + k.val))]
    congr 1
    rw [Fin.sum_univ_eq_sum_range (fun j => Real.exp (s' (B * 0 + j) - m) * v' (B * 0 + j)) B]
    simp
  | succ n ih =>
    intro hn m hm
    obtain ⟨m0, hm0⟩ := runMax_real hB sb s' hs n (Nat.lt_of_succ_lt hn)
    have ih' := ih (Nat.lt_of_succ_lt hn) m0 hm0
    rw [runAcc_succ, ih', hm0, hm]
    simp only [hs (n + 1) hn, hv (n + 1) hn]
    rw [step_real m0 m _ (fun k : Fin B => s' (B * (n + 1) + k.val)) (fun k : Fin B => v' (B * (n + 1) + k.val))]
    congr 1
    rw [show B * (n + 1 + 1) = B * (n + 1) + B from Nat.mul_succ B (n + 1), Finset.sum_range_add,
      Fin.sum_univ_eq_sum_range (fun j => Real.exp (s' (B * (n + 1) + j) - m) * v' (B * (n + 1) + j)) B,
      Finset.mul_sum]
    congr 1
    refine Finset.sum_congr rfl fun j _ => ?_
    rw [← mul_assoc, ← Real.exp_add]
    congr 2
    ring

/-! ### The reference's row, in real terms -/

/-- With the largest score the real `M`, the softmax combination is the unnormalised combination relative to `M`
    divided by the positive normaliser. -/
theorem softmaxCombine_real {N D : ℕ} (hN : 0 < N) (S : Fin N → ℝ) (V : Fin N → Fin D → ℝ) (M : ℝ)
    (hM : (⨆ i, ((S i : ℝ) : EReal)) = (M : EReal)) (d : Fin D) :
    softmaxCombine (fun i => ((S i : ℝ) : EReal)) (fun i d => ((V i d : ℝ) : EReal)) d
      = (((∑ i, Real.exp (S i - M) * V i d) * (∑ i, Real.exp (S i - M))⁻¹ : ℝ) : EReal) := by
  haveI : Nonempty (Fin N) := ⟨⟨0, hN⟩⟩
  have hl : 0 < ∑ i, Real.exp (S i - M) :=
    Finset.sum_pos (fun i _ => Real.exp_pos _) Finset.univ_nonempty
  have e1 : ∀ i, Ideal.exp (((S i : ℝ) : EReal) - (M : EReal)) = ((Real.exp (S i - M) : ℝ) : EReal) :=
    fun i => by rw [← EReal.coe_sub, Ideal.exp_coe]
  show ∑ i, Ideal.div (Ideal.exp (((S i : ℝ) : EReal) - max ⊥ (⨆ i', ((S i' : ℝ) : EReal))))
      (∑ i', Ideal.exp (((S i' : ℝ) : EReal) - max ⊥ (⨆ i'', ((S i'' : ℝ) : EReal)))) * ((V i d : ℝ) : EReal) = _
  rw [hM, max_eq_right bot_le]
  simp only [e1]
  rw [← coe_sum Finset.univ (fun i => Real.exp (S i - M))]
  simp only [Ideal.div_coe hl.ne', ← EReal.coe_mul]
  rw [← coe_sum]
  congr 1
  rw [Finset.sum_mul]
  refine Finset.sum_congr rfl fun i _ => ?_
  ring

/-! ### The unit vector forgets a positive factor -/

/-- Numerator and denominator scaled by the same positive real: the same quotient, at a zero denominator too
    (the sign of the numerator is unchanged). -/
theorem div_scale (a b : ℝ) {c : ℝ} (hc : 0 < c) :
    Ideal.div ((a * c : ℝ) : EReal) ((b * c : ℝ) : EReal) = Ideal.div (a : EReal) (b : EReal) := by
  by_cases hb : b = 0
  · subst hb
    rw [zero_mul]
    unfold Ideal.div
    rw [if_pos EReal.coe_zero, if_pos EReal.coe_zero]
    by_cases ha : 0 < a
    · rw [if_pos (EReal.coe_pos.mpr (mul_pos ha hc)), if_pos (EReal.coe_pos.mpr ha)]
    · rw [if_neg (fun h => ha ((mul_pos_iff_of_pos_right hc).mp (EReal.coe_pos.mp h))),
        if_neg (fun h => ha (EReal.coe_pos.mp h))]
  · have hbc : b * c ≠ 0 := mul_ne_zero hb hc.ne'
    rw [Ideal.div_coe hbc, Ideal.div_coe hb, ← EReal.coe_mul, ← EReal.coe_mul]
    congr 1
    field_simp

/-- A real row times a positive real has the same unit vector. -/
theorem unit_scale {D : ℕ} (y : Fin D → ℝ) {c : ℝ} (hc : 0 < c) :
    unit (fun d => ((y d * c : ℝ) : EReal)) = unit (fun d => ((y d : ℝ) : EReal)) := by
  funext d
  have hsq : 0 ≤ ∑ e, y e * y e := Finset.sum_nonneg fun e _ => mul_self_nonneg _
  have h1 : (∑ e, ((y e * c : ℝ) : EReal) * ((y e * c : ℝ) : EReal))
      = (((∑ e, y e * y e) * (c * c) : ℝ) : EReal) := by
    rw [Finset.sum_mul, coe_sum]
    refine Finset.sum_congr rfl fun e _ => ?_
    rw [← EReal.coe_mul]
    congr 1
    ring
  have h2 : (∑ e, ((y e : ℝ) : EReal) * ((y e : ℝ) : EReal)) = ((∑ e, y e * y e : ℝ) : EReal) := by
    rw [coe_sum]
    exact Finset.sum_congr rfl fun e _ => (EReal.coe_mul _ _).symm
  show Ideal.div ((y d * c : ℝ) : EReal)
        (Ideal.sqrt (∑ e, ((y e * c : ℝ) : EReal) * ((y e * c : ℝ) : EReal)))
      = Ideal.div ((y d : ℝ) : EReal) (Ideal.sqrt (∑ e, ((y e : ℝ) : EReal) * ((y e : ℝ) : EReal)))
  rw [h1, h2, Ideal.sqrt_coe, Ideal.sqrt_coe, if_neg (not_lt.mpr hsq),
    if_neg (not_lt.mpr (mul_nonneg hsq (mul_self_nonneg c))), Real.sqrt_mul hsq, Real.sqrt_mul_self hc.le]
  exact div_scale _ _ hc

/-! ### The one-pass evaluation and the reference agree up to the unit vector -/

theorem unit_onePass_eq_unit_softmax {N B D J : ℕ} (hB : 0 < B) (hJ : 0 < J) (hN : B * J = N)
    (S : Fin N → ℝ) (V : Fin N → Fin D → ℝ)
    (sb : ℕ → Fin B → EReal) (vb : Fin D → ℕ → Fin B → EReal)
    (hs : ∀ (j : ℕ) (k : Fin B) (h : B * j + k.val < N), sb j k = ((S ⟨B * j + k.val, h⟩ : ℝ) : EReal))
    (hv : ∀ (d : Fin D) (j : ℕ) (k : Fin B) (h : B * j + k.val < N), vb d j k = ((V ⟨B * j + k.val, h⟩ d : ℝ) : EReal)) :
    Retrieval.unit (fun d => Retrieval.runAcc sb (vb d) J)
      = Retrieval.unit (Retrieval.softmaxCombine (fun i => ((S i : ℝ) : EReal)) (fun i d => ((V i d : ℝ) : EReal))) := by
  obtain ⟨J', rfl⟩ : ∃ J', J = J' + 1 := Nat.exists_eq_succ_of_ne_zero hJ.ne'
  have hNpos : 0 < N := by rw [← hN]; exact Nat.mul_pos hB (Nat.succ_pos _)
  -- every position of the first `J` blocks is a position of the memory
  have hlt : ∀ j, j < J' + 1 → ∀ k : Fin B, B * j + k.val < N := by
    intro j hj k
    have hk := k.isLt
    calc B * j + k.val < B * j + B := by omega
      _ = B * (j + 1) := (Nat.mul_succ B j).symm
      _ ≤ B * (J' + 1) := Nat.mul_le_mul_left B hj
      _ = N := hN
  have hs' : ∀ j, j < J' + 1 → ∀ k : Fin B, sb j k = ((zeroExt S (B * j + k.val) : ℝ) : EReal) := by
    intro j hj k
    rw [hs j k (hlt j hj k), zeroExt_of_lt S (hlt j hj k)]
  have hv' : ∀ d, ∀ j, j < J' + 1 → ∀ k : Fin B,
      vb d j k = ((zeroExt (fun i => V i d) (B * j + k.val) : ℝ) : EReal) := by
    intro d j hj k
    rw [hv d j k (hlt j hj k), zeroExt_of_lt (fun i => V i d) (hlt j hj k)]
  -- the largest score, a real
  obtain ⟨M, hM⟩ := runMax_real hB sb (zeroExt S) hs' J' (Nat.lt_succ_self J')
  have hsup : (⨆ i, ((S i : ℝ) : EReal)) = (M : EReal) := by
    rw [← hM, runMax_eq_supBelow hN S sb hs (J' + 1) le_rfl, OrderFold.supBelow_all _ (le_of_eq hN.symm)]
  -- the one-pass row
  have hacc : ∀ d, runAcc sb (vb d) (J' + 1) = ((∑ i, Real.exp (S i - M) * V i d : ℝ) : EReal) := by
    intro d
    rw [runAcc_closed hB sb (vb d) (zeroExt S) (zeroExt fun i => V i d) hs' (hv' d) J' (Nat.lt_succ_self J') M hM,
      hN, ← Fin.sum_univ_eq_sum_range (fun j => Real.exp (zeroExt S j - M) * zeroExt (fun i => V i d) j) N]
    congr 1
    refine Finset.sum_congr rfl fun i _ => ?_
    rw [zeroExt_coe, zeroExt_coe]
  haveI : Nonempty (Fin N) := ⟨⟨0, hNpos⟩⟩
  have hl : 0 < ∑ i, Real.exp (S i - M) :=
    Finset.sum_pos (fun i _ => Real.exp_pos _) Finset.univ_nonempty
  have e1 : (fun d => runAcc sb (vb d) (J' + 1)) = fun d => ((∑ i, Real.exp (S i - M) * V i d : ℝ) : EReal) :=
    funext hacc
  have e2 : softmaxCombine (fun i => ((S i : ℝ) : EReal)) (fun i d => ((V i d : ℝ) : EReal))
      = fun d => (((∑ i, Real.exp (S i - M) * V i d) * (∑ i, Real.exp (S i - M))⁻¹ : ℝ) : EReal) :=
    funext fun d => softmaxCombine_real hNpos S V M hsup d
  rw [e1, e2]
  exact (unit_scale (fun d => ∑ i, Real.exp (S i - M) * V i d) (inv_pos.mpr hl)).symm

end Retrieval

end
-- ==== Proof.ResultsAgree.lean ====
/-
  The one-pass program's result and the reference's result are the same array, when every entry of the three
  argument arrays is real.

  Both results finish the same query rows with two different retrieved rows, and the finish only looks at the unit
  vector of the retrieved row. A query row whose norm vanishes is all zero, its unit vector is `0 / 0 = -∞` at every
  feature, and the mean with anything is `-∞` on both sides. A query row with a nonzero norm has a real unit vector, so
  its scores against the real key memory are real, and the one-pass retrieved row and the softmax combination have
  the same unit vector.
-/
import proofs.«123042_j68418829025564_2_alg».proof.Proof.RetrievalArrays
import proofs.«123042_j68418829025564_2_alg».proof.Proof.OnePassSoftmax

noncomputable section

open scoped BigOperators

namespace Retrieval

open Idealize.ShloMosaic Idealize.ShloMosaic.ValueIdx

/-- The interpolation weight's pattern denotes the real one half. -/
theorem halfW_eq : halfW = ((1 / 2 : ℝ) : EReal) := by
  unfold halfW
  simp [Ideal.ofBits, Ideal.ieee, -EReal.coe_mul]
  norm_num

/-- The unit vector of a real row: each entry over the real square root of the sum of squares. -/
theorem unit_coe {D : ℕ} (y : Fin D → ℝ) (d : Fin D) :
    unit (fun d => ((y d : ℝ) : EReal)) d
      = Ideal.div ((y d : ℝ) : EReal) ((Real.sqrt (∑ e, y e * y e) : ℝ) : EReal) := by
  have hsq : 0 ≤ ∑ e, y e * y e := Finset.sum_nonneg fun e _ => mul_self_nonneg _
  have h2 : (∑ e, ((y e : ℝ) : EReal) * ((y e : ℝ) : EReal)) = ((∑ e, y e * y e : ℝ) : EReal) := by
    rw [coe_sum]
    exact Finset.sum_congr rfl fun e _ => (EReal.coe_mul _ _).symm
  show Ideal.div ((y d : ℝ) : EReal) (Ideal.sqrt (∑ e, ((y e : ℝ) : EReal) * ((y e : ℝ) : EReal))) = _
  rw [h2, Ideal.sqrt_coe, if_neg (not_lt.mpr hsq)]

/-- Two retrieved rows with the same unit vector give the same mean with the query row. -/
theorem blend_congr {D : ℕ} (h : EReal) (q r₁ r₂ : Fin D → EReal) (hr : unit r₁ = unit r₂) :
    blend h q r₁ = blend h q r₂ := by
  funext d
  show h * q d + h * unit r₁ d = h * q d + h * unit r₂ d
  rw [hr]

/-- A query row that is `-∞` everywhere makes the mean `-∞` everywhere, whatever was retrieved. -/
theorem blend_bot {D : ℕ} (q r : Fin D → EReal) (hq : ∀ d, q d = ⊥) : blend halfW q r = fun _ => ⊥ := by
  funext d
  show halfW * q d + halfW * unit r d = ⊥
  rw [hq d, halfW_eq, EReal.coe_mul_bot_of_pos (by norm_num), EReal.bot_add]

/-- The scores of a real query row against a real key memory are real. -/
theorem score_coe (q : SQ.Idx → EReal) (K : SMem.Idx → EReal) (b : Fin 2048) (θ : Fin 512 → ℝ) (κ : SMem.Idx → ℝ)
    (hq : ∀ d, q (ix2 b d) = ((θ d : ℝ) : EReal)) (hκ : ∀ i, K i = ((κ i : ℝ) : EReal)) (i : Fin 131072) :
    score q K b i = (((∑ d : Fin 512, θ d * κ (ix2 i d)) * (134217728 / 9395241) : ℝ) : EReal) := by
  unfold score invT
  rw [EReal.coe_mul, coe_sum]
  congr 1
  refine Finset.sum_congr rfl fun d _ => ?_
  rw [hq d, hκ (ix2 i d), EReal.coe_mul]

/-- Row by row: the mean of the unit query row and the unit retrieved row is the same for the two retrievals. -/
theorem blend_row_eq (x : SQ.Idx → EReal) (K V : SMem.Idx → EReal)
    (hx : ∀ i, ∃ r : ℝ, x i = (r : EReal)) (hK : ∀ i, ∃ r : ℝ, K i = (r : EReal))
    (hV : ∀ i, ∃ r : ℝ, V i = (r : EReal)) (b : Fin 2048) :
    blend halfW (rowOf (query x) b) (rowOf (onePassRetrieved (query x) K V) b)
      = blend halfW (rowOf (query x) b) (rowOf (refRetrieved (query x) K V) b) := by
  choose ξ hξ using fun d : Fin 512 => hx (ix2 b d)
  choose κ hκ using hK
  choose ν hν using hV
  have hsq : 0 ≤ ∑ e, ξ e * ξ e := Finset.sum_nonneg fun e _ => mul_self_nonneg _
  -- the unit query row, entry by entry
  have hq0 : ∀ d, query x (ix2 b d)
      = Ideal.div ((ξ d : ℝ) : EReal) ((Real.sqrt (∑ e, ξ e * ξ e) : ℝ) : EReal) := by
    intro d
    have : rowOf x b = fun d => ((ξ d : ℝ) : EReal) := funext hξ
    show unit (rowOf x b) d = _
    rw [this, unit_coe]
  by_cases hn : Real.sqrt (∑ e, ξ e * ξ e) = 0
  · -- a vanishing norm: the row is zero and its unit vector is `0 / 0`
    have hz : ∑ e, ξ e * ξ e = 0 := (Real.sqrt_eq_zero hsq).mp hn
    have hξ0 : ∀ d, ξ d = 0 := fun d =>
      mul_self_eq_zero.mp ((Finset.sum_eq_zero_iff_of_nonneg fun e _ => mul_self_nonneg (ξ e)).mp hz d (Finset.mem_univ d))
    have hqb : ∀ d, rowOf (query x) b d = ⊥ := by
      intro d
      show query x (ix2 b d) = ⊥
      rw [hq0 d, hn, hξ0 d]
      unfold Ideal.div
      rw [if_pos EReal.coe_zero, if_neg (by rw [EReal.coe_zero]; exact lt_irrefl _)]
    rw [blend_bot _ _ hqb, blend_bot _ _ hqb]
  · -- a nonzero norm: real unit query row, real scores
    have hq : ∀ d, query x (ix2 b d) = ((ξ d * (1 / Real.sqrt (∑ e, ξ e * ξ e)) : ℝ) : EReal) := by
      intro d
      rw [hq0 d, Ideal.div_coe hn, EReal.coe_mul]
    refine blend_congr _ _ _ _ ?_
    have h1 : rowOf (onePassRetrieved (query x) K V) b
        = fun d => runAcc (scoreBlock (query x) K b) (valueBlock V d) 256 := rfl
    have h2 : rowOf (refRetrieved (query x) K V) b
        = softmaxCombine (score (query x) K b) (fun m d => V (ix2 m d)) := rfl
    have h3 : score (query x) K b
        = fun i => (((∑ d : Fin 512, ξ d * (1 / Real.sqrt (∑ e, ξ e * ξ e)) * κ (ix2 i d))
            * (134217728 / 9395241) : ℝ) : EReal) :=
      funext fun i => score_coe (query x) K b _ κ hq hκ i
    have h4 : (fun (m : Fin 131072) (d : Fin 512) => V (ix2 m d)) = fun m d => ((ν (ix2 m d) : ℝ) : EReal) :=
      funext fun m => funext fun d => hν (ix2 m d)
    rw [h1, h2, h3, h4]
    refine unit_onePass_eq_unit_softmax (N := 131072) (B := 512) (D := 512) (J := 256) (by norm_num) (by norm_num)
      (by norm_num) _ (fun m d => ν (ix2 m d)) (scoreBlock (query x) K b) (fun d => valueBlock V d) ?_ ?_
    · intro j k h
      unfold scoreBlock
      rw [dif_pos h, score_coe (query x) K b _ κ hq hκ]
    · intro d j k h
      unfold valueBlock
      rw [dif_pos h, hν]

/-- The one-pass program's result is the reference's result. -/
theorem onePassResult_eq_refResult (x : SQ.Idx → EReal) (K V : SMem.Idx → EReal)
    (hx : ∀ i, ∃ r : ℝ, x i = (r : EReal)) (hK : ∀ i, ∃ r : ℝ, K i = (r : EReal)) (hV : ∀ i, ∃ r : ℝ, V i = (r : EReal)) :
    onePassResult x K V = refResult x K V := by
  funext i
  show unit (blend halfW (rowOf (query x) (i 0)) (rowOf (onePassRetrieved (query x) K V) (i 0))) (i 1)
    = unit (blend halfW (rowOf (query x) (i 0)) (rowOf (refRetrieved (query x) K V) (i 0))) (i 1)
  rw [blend_row_eq x K V hx hK hV (i 0)]

end Retrieval

end
-- ==== Proof.FiniteInputs.lean ====
/-
  From the certificate's precondition to "every entry of the three argument arrays is a real number".

  The precondition is the conjunction of three tests `all (|a| < +∞)`, one per argument array, each printed as a
  reduction by `and` of the elementwise comparison of `|a|` with the constant `+∞`. A reduction by `and` over every
  axis that comes out `1` had a `1` at every index, and on the extended reals `max a (-a) < ⊤` excludes `a = ⊤` and
  `a = ⊥` (for both, the maximum is `⊤`), so `a` is a real.
-/
import proofs.«123042_j68418829025564_2_alg».proof.Pre_finite_inputs
import Idealize.ShloMosaic.PureOps.Ideal
import Idealize.ShloMosaic.Lib.ValueIdx
import Idealize.ShloMosaic.Lib.IdealHost
import Idealize.ShloMosaic.Lib.ReduceAll

noncomputable section

namespace Cert.Pre_finite_inputs.Finite

open Idealize.ShloMosaic Idealize.ShloMosaic.ValueIdx

/-- The rank-0 shape has exactly one index. -/
instance : Subsingleton S_.Idx := ⟨fun _ _ => funext fun d => d.elim0⟩

/-- The pattern of `+∞` denotes `⊤`. -/
theorem ofBits_inf : Ideal.ofBits .f32 0x7F800000#32 = (⊤ : EReal) := by
  simp [Ideal.ofBits, Ideal.ieee]

/-- An extended real whose absolute value is below `⊤` is a real: at `⊤` and at `⊥` the absolute value is `⊤`. -/
theorem real_of_abs_lt_top (a : EReal) (h : Ideal.cmp .olt (max a (-a)) ⊤ = 1#1) : ∃ r : ℝ, a = (r : EReal) := by
  induction a using EReal.rec
  · exfalso
    simp [Ideal.cmp] at h
  · exact ⟨_, rfl⟩
  · exfalso
    simp [Ideal.cmp] at h

/-- One test `all (|a| < +∞)` that came out `1`: every entry of `a` is a real. -/
theorem reals_of_all {T : Shape} (hb : S_.BroadcastsInDim T (![] : Fin 0 → Fin T.rank)) {axes : List (Fin T.rank)}
    (hr : T.ReducesTo axes S_) (hu : 0 < S_.numel) (a : FVec Ideal T .f32)
    (e : Host.reduce IntOp.andi
          (cmpf .olt (Host.absf a) (broadcastInDim T ![] hb (constant (F := Ideal) S_ .f32 0x7F800000#32)))
          (constantI S_ 1 1#1) hr hu ix0 = 1#1) :
    ∀ i, ∃ r : ℝ, a i = (r : EReal) := by
  intro i
  have h1 := Host.reduce_andi_all _ _ hr hu ix0 e i
  have hb' : broadcastInDim T ![] hb (constant (F := Ideal) S_ .f32 0x7F800000#32) i
      = Ideal.ofBits .f32 0x7F800000#32 := broadcastInDim_scalar_apply hb _ i
  have h2 : Ideal.cmp .olt (max (a i) (-(a i)))
      (broadcastInDim T ![] hb (constant (F := Ideal) S_ .f32 0x7F800000#32) i) = 1#1 := h1
  rw [hb', ofBits_inf] at h2
  exact real_of_abs_lt_top _ h2

/-- The precondition holds: the three argument arrays have only real entries. -/
theorem reals_of_pre [Cert.Pre_finite_inputs.Facts] (x : FVec Ideal Cert.Pre_finite_inputs.S2048x512 .f32)
    (K V : FVec Ideal Cert.Pre_finite_inputs.S131072x512 .f32)
    (h : Cert.Pre_finite_inputs.fn (F := Ideal) x K V = fun _ => 1#1) :
    (∀ i, ∃ r : ℝ, x i = (r : EReal)) ∧ (∀ i, ∃ r : ℝ, K i = (r : EReal)) ∧ (∀ i, ∃ r : ℝ, V i = (r : EReal)) := by
  have h0 := congrFun h ix0
  dsimp only [fn] at h0
  obtain ⟨h12, h3⟩ := IntOp.andi_eq_one.1 h0
  obtain ⟨h1, h2⟩ := IntOp.andi_eq_one.1 h12
  exact ⟨reals_of_all _ _ _ x h1, reals_of_all _ _ _ K h2, reals_of_all _ _ _ V h3⟩

end Cert.Pre_finite_inputs.Finite

end
-- ==== Proof.lean ====
/-
  Both programs compute, for finite inputs, the same array: row by row, the unit vector of the mean of the unit query
  row and the unit retrieved row.

  The reference retrieves by the softmax of the scores: the weights `exp (s i - max s) / Σ exp (s i' - max s)` combined
  with the value rows. The kernel visits the memory in 256 blocks of 512 rows and carries a running maximum and a
  running combination rescaled by `exp (old max - new max)` whenever the maximum grows; after the last block its row is
  the softmax combination times the softmax denominator `Σ exp (s i - max s)`, a positive real when the inputs are
  finite, and the division of the row by its Euclidean norm forgets a positive common factor. A query row whose norm
  vanishes is `0 / 0 = -∞` at every feature in both programs, and then so is its mean with any retrieved row, so the
  result rows agree there whatever was retrieved. The kernel multiplies the inner
  products by a folded constant, read here as the exact reciprocal `2^27 / 9395241` of the temperature the reference
  divides by.
-/
import proofs.«123042_j68418829025564_2_alg».proof.Defs
import proofs.«123042_j68418829025564_2_alg».proof.Proof.Gen.Kernel
import proofs.«123042_j68418829025564_2_alg».proof.Proof.Gen.Kernel.Skeleton
import proofs.«123042_j68418829025564_2_alg».proof.Proof.Gen.Kernel.Launch
import proofs.«123042_j68418829025564_2_alg».proof.Proof.Gen.Kernel.Points
import proofs.«123042_j68418829025564_2_alg».proof.Proof.Gen.Kernel.Frame
import proofs.«123042_j68418829025564_2_alg».proof.Proof.Gen.KernelIdeal
import proofs.«123042_j68418829025564_2_alg».proof.Proof.Gen.KernelIdeal.Skeleton
import proofs.«123042_j68418829025564_2_alg».proof.Proof.Gen.KernelIdeal.Launch
import proofs.«123042_j68418829025564_2_alg».proof.Proof.Gen.KernelIdeal.Points
import proofs.«123042_j68418829025564_2_alg».proof.Proof.Gen.KernelIdeal.Frame
import proofs.«123042_j68418829025564_2_alg».proof.Proof.Gen.ReferenceIdeal
import proofs.«123042_j68418829025564_2_alg».proof.Proof.Gen.ReferenceIdeal.Run
import proofs.«123042_j68418829025564_2_alg».proof.Proof.Gen.ReferenceIdeal.Read
import proofs.«123042_j68418829025564_2_alg».proof.Proof.Gen.Pre_finite_inputs
import proofs.«123042_j68418829025564_2_alg».proof.Proof.KernelRun
import proofs.«123042_j68418829025564_2_alg».proof.Proof.ReferenceValue
import proofs.«123042_j68418829025564_2_alg».proof.Proof.ResultsAgree
import proofs.«123042_j68418829025564_2_alg».proof.Proof.FiniteInputs
import Idealize.ShloMosaic.Adequacy
import Idealize.ShloMosaic.Init

noncomputable section

namespace Cert.Proof

open Idealize.ShloMosaic Idealize.SL.Sem Cert.Kernel

/-- The kernel as printed runs and leaves its arguments as launched. -/
theorem frame_Kernel : Cert.frame_Kernel := fun m ρ _ => Cert.Kernel.Gen.frame m ρ

/-- The idealized kernel runs and leaves its arguments as launched. -/
theorem frame_KernelIdeal : Cert.frame_KernelIdeal := fun m ρ _ => Cert.KernelIdeal.Gen.frame m ρ

/-- The idealized reference runs and leaves its arguments as launched. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The kernel's folded constant is read as the exact reciprocal of the temperature, `2^27 / 9395241`. -/
theorem preserves : Cert.preserves_Kernel_KernelIdeal :=
  IdealRules.named_const.statement Cert.KernelIdeal.κ "inv_temperature" .f32 0x41649249#32
    ((134217728 / 9395241 : ℝ) : EReal) rfl

/-- On the extended reals, from finite arguments that agree, both programs end at the reference's result
    `Retrieval.refResult` of the arguments: the kernel at the one-pass result, which is the same array. -/
theorem algebraic : Cert.algebraic_KernelIdeal_ReferenceIdeal := by
  intro m ρ m' ρ' hpre hagree
  refine ⟨fun c => Retrieval.refResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.RunValue.run m ρ)
    obtain ⟨hx, hK, hV⟩ := Cert.Pre_finite_inputs.Finite.reals_of_pre _ _ _ (hpre c)
    exact Retrieval.onePassResult_eq_refResult _ _ _ hx hK hV
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.ReferenceIdeal.RefValue.val_eq_refResult,
      (hagree c).1, (hagree c).2.1, (hagree c).2.2]

theorem claim : Cert.Claim := ⟨Cert.Kernel.Gen.facts, Cert.KernelIdeal.Gen.facts, Cert.ReferenceIdeal.Gen.facts,
  Cert.Pre_finite_inputs.Gen.facts, frame_Kernel, frame_KernelIdeal, frame_ReferenceIdeal, preserves, algebraic⟩

end Cert.Proof

end
